-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024 : Shape := ⟨1, ![1024]⟩
abbrev S2048x1024 : Shape := ⟨2, ![2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024 .f32) (main_arg6 : FVec F S2048x1024 .f32) (main_arg7 : FVec F S1024x1024 .f32) (main_arg8 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S2x2048x1024 .f32) (main_arg2 : FVec F S1024 .f32) (main_arg3 : FVec F S1024 .f32) (main_arg4 : FVec F S1024 .f32) (main_arg5 : FVec F S1024 .f32) (main_arg6 : FVec F S2048x1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024 : Shape := ⟨1, ![1024]⟩
abbrev S2048x1024 : Shape := ⟨2, ![2048, 1024]⟩
abbrev S1024x1024 : Shape := ⟨2, ![1024, 1024]⟩
abbrev S1x512x1024 : Shape := ⟨3, ![1, 512, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩
abbrev S1x2048x1024 : Shape := ⟨3, ![1, 2048, 1024]⟩
abbrev S512x64 : Shape := ⟨2, ![512, 64]⟩
abbrev S1x2048x64 : Shape := ⟨3, ![1, 2048, 64]⟩
abbrev S2048x64 : Shape := ⟨2, ![2048, 64]⟩

abbrev nBuf : Space → Nat
  | .hbm => 14
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S1024x1024, .f32⟩
  | .hbm, ⟨8, _⟩ => ⟨S1024, .f32⟩
  | .hbm, ⟨9, _⟩ => ⟨S2048x1024, .bf16⟩
  | .hbm, ⟨10, _⟩ => ⟨S2x2048x1024, .bf16⟩
  | .hbm, ⟨11, _⟩ => ⟨S2x2048x1024, .bf16⟩
  | .hbm, ⟨12, _⟩ => ⟨S1024x1024, .bf16⟩
  | .hbm, ⟨13, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S2048x1024, .bf16⟩
  | .local _ .vmem, ⟨3, _⟩ => ⟨S1024, .f32⟩
  | .local _ .vmem, ⟨4, _⟩ => ⟨S1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1024, .f32⟩
  | .local _ .vmem, ⟨12, _⟩ => ⟨S1024, .f32⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1024x1024, .bf16⟩
  | .local _ .vmem, ⟨18, _⟩ => ⟨S1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S512x2048_o0_0_S512x1024 : S512x2048.Slices ![0, 0] S512x1024
  slices_S512x2048_o0_1024_S512x1024 : S512x2048.Slices ![0, 1024] S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S512x1024_o0_0_S512x64 : S512x1024.Slices ![0, 0] S512x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S512x2048_S512 : S512x2048.Reduces [1] S512
  broadcasts_S512x1_S512x2048 : S512x1.Broadcasts S512x2048
  inb_S512x1024_S512x64_0_0 : ∀ a, (![0, 0] : Fin 2 → Nat) a + S512x64.size a ≤ S512x1024.size a
  h_S512x64 : 0 < S512x64.numel
  shapeCasts_S512x64_S512x64 : S512x64.ShapeCasts S512x64
  slices_S512x1024_o0_64_S512x64 : S512x1024.Slices ![0, 64] S512x64
  inb_S1x2048x1024_S1x2048x64_0_0_64 : ∀ a, (![0, 0, 64] : Fin 3 → Nat) a + S1x2048x64.size a ≤ S1x2048x1024.size a
  inb_S512x1024_S512x64_0_64 : ∀ a, (![0, 64] : Fin 2 → Nat) a + S512x64.size a ≤ S512x1024.size a
  slices_S512x1024_o0_128_S512x64 : S512x1024.Slices ![0, 128] S512x64
  inb_S1x2048x1024_S1x2048x64_0_0_128 : ∀ a, (![0, 0, 128] : Fin 3 → Nat) a + S1x2048x64.size a ≤ S1x2048x1024.size a
  inb_S512x1024_S512x64_0_128 : ∀ a, (![0, 128] : Fin 2 → Nat) a + S512x64.size a ≤ S512x1024.size a
  slices_S512x1024_o0_192_S512x64 : S512x1024.Slices ![0, 192] S512x64
  inb_S1x2048x1024_S1x2048x64_0_0_192 : ∀ a, (![0, 0, 192] : Fin 3 → Nat) a + S1x2048x64.size a ≤ S1x2048x1024.size a
  inb_S512x1024_S512x64_0_192 : ∀ a, (![0, 192] : Fin 2 → Nat) a + S512x64.size a ≤ S512x1024.size a
  slices_S512x1024_o0_256_S512x64 : S512x1024.Slices ![0, 256] S512x64
  inb_S1x2048x1024_S1x2048x64_0_0_256 : ∀ a, (![0, 0, 256] : Fin 3 → Nat) a + S1x2048x64.size a ≤ S1x2048x1024.size a
  inb_S512x1024_S512x64_0_256 : ∀ a, (![0, 256] : Fin 2 → Nat) a + S512x64.size a ≤ S512x1024.size a
  slices_S512x1024_o0_320_S512x64 : S512x1024.Slices ![0, 320] S512x64
  inb_S1x2048x1024_S1x2048x64_0_0_320 : ∀ a, (![0, 0, 320] : Fin 3 → Nat) a + S1x2048x64.size a ≤ S1x2048x1024.size a
  inb_S512x1024_S512x64_0_320 : ∀ a, (![0, 320] : Fin 2 → Nat) a + S512x64.size a ≤ S512x1024.size a
  slices_S512x1024_o0_384_S512x64 : S512x1024.Slices ![0, 384] S512x64
  inb_S1x2048x1024_S1x2048x64_0_0_384 : ∀ a, (![0, 0, 384] : Fin 3 → Nat) a + S1x2048x64.size a ≤ S1x2048x1024.size a
  inb_S512x1024_S512x64_0_384 : ∀ a, (![0, 384] : Fin 2 → Nat) a + S512x64.size a ≤ S512x1024.size a
  slices_S512x1024_o0_448_S512x64 : S512x1024.Slices ![0, 448] S512x64
  inb_S1x2048x1024_S1x2048x64_0_0_448 : ∀ a, (![0, 0, 448] : Fin 3 → Nat) a + S1x2048x64.size a ≤ S1x2048x1024.size a
  inb_S512x1024_S512x64_0_448 : ∀ a, (![0, 448] : Fin 2 → Nat) a + S512x64.size a ≤ S512x1024.size a
  slices_S512x1024_o0_512_S512x64 : S512x1024.Slices ![0, 512] S512x64
  inb_S1x2048x1024_S1x2048x64_0_0_512 : ∀ a, (![0, 0, 512] : Fin 3 → Nat) a + S1x2048x64.size a ≤ S1x2048x1024.size a
  inb_S512x1024_S512x64_0_512 : ∀ a, (![0, 512] : Fin 2 → Nat) a + S512x64.size a ≤ S512x1024.size a
  slices_S512x1024_o0_576_S512x64 : S512x1024.Slices ![0, 576] S512x64
  inb_S1x2048x1024_S1x2048x64_0_0_576 : ∀ a, (![0, 0, 576] : Fin 3 → Nat) a + S1x2048x64.size a ≤ S1x2048x1024.size a
  inb_S512x1024_S512x64_0_576 : ∀ a, (![0, 576] : Fin 2 → Nat) a + S512x64.size a ≤ S512x1024.size a
  slices_S512x1024_o0_640_S512x64 : S512x1024.Slices ![0, 640] S512x64
  inb_S1x2048x1024_S1x2048x64_0_0_640 : ∀ a, (![0, 0, 640] : Fin 3 → Nat) a + S1x2048x64.size a ≤ S1x2048x1024.size a
  inb_S512x1024_S512x64_0_640 : ∀ a, (![0, 640] : Fin 2 → Nat) a + S512x64.size a ≤ S512x1024.size a
  slices_S512x1024_o0_704_S512x64 : S512x1024.Slices ![0, 704] S512x64
  inb_S1x2048x1024_S1x2048x64_0_0_704 : ∀ a, (![0, 0, 704] : Fin 3 → Nat) a + S1x2048x64.size a ≤ S1x2048x1024.size a
  inb_S512x1024_S512x64_0_704 : ∀ a, (![0, 704] : Fin 2 → Nat) a + S512x64.size a ≤ S512x1024.size a
  slices_S512x1024_o0_768_S512x64 : S512x1024.Slices ![0, 768] S512x64
  inb_S1x2048x1024_S1x2048x64_0_0_768 : ∀ a, (![0, 0, 768] : Fin 3 → Nat) a + S1x2048x64.size a ≤ S1x2048x1024.size a
  inb_S512x1024_S512x64_0_768 : ∀ a, (![0, 768] : Fin 2 → Nat) a + S512x64.size a ≤ S512x1024.size a
  slices_S512x1024_o0_832_S512x64 : S512x1024.Slices ![0, 832] S512x64
  inb_S1x2048x1024_S1x2048x64_0_0_832 : ∀ a, (![0, 0, 832] : Fin 3 → Nat) a + S1x2048x64.size a ≤ S1x2048x1024.size a
  inb_S512x1024_S512x64_0_832 : ∀ a, (![0, 832] : Fin 2 → Nat) a + S512x64.size a ≤ S512x1024.size a
  slices_S512x1024_o0_896_S512x64 : S512x1024.Slices ![0, 896] S512x64
  inb_S1x2048x1024_S1x2048x64_0_0_896 : ∀ a, (![0, 0, 896] : Fin 3 → Nat) a + S1x2048x64.size a ≤ S1x2048x1024.size a
  inb_S512x1024_S512x64_0_896 : ∀ a, (![0, 896] : Fin 2 → Nat) a + S512x64.size a ≤ S512x1024.size a
  slices_S512x1024_o0_960_S512x64 : S512x1024.Slices ![0, 960] S512x64
  inb_S1x2048x1024_S1x2048x64_0_0_960 : ∀ a, (![0, 0, 960] : Fin 3 → Nat) a + S1x2048x64.size a ≤ S1x2048x1024.size a
  inb_S512x1024_S512x64_0_960 : ∀ a, (![0, 960] : Fin 2 → Nat) a + S512x64.size a ≤ S512x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  dot_S512x1024_S2048x1024_S512x2048_1_1_0_0_n_n_wf : DotDims.WF S512x1024 S2048x1024 S512x2048 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S2x2048x1024.size a
  hwx0_4 : ∀ i : grid0.Coords, EltTy.bits .bf16 = 32 ∨ (Rect.block (s := S2x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S2x2048x1024.size a
  hwx0_5 : ∀ i : grid0.Coords, EltTy.bits .bf16 = 32 ∨ (Rect.block (s := S2x2048x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .f32 = 32 ∨ (Rect.block (s := S2x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .f32 = 32 ∨ (Rect.block (s := S1024) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S2x2048x1024.size a
  hwx1_3 : ∀ i : grid1.Coords, EltTy.bits .bf16 = 32 ∨ (Rect.block (s := S2x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S2x2048x1024.size a
  hwx1_4 : ∀ i : grid1.Coords, EltTy.bits .bf16 = 32 ∨ (Rect.block (s := S2x2048x1024) S1x2048x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x1024.size a ≤ S2x2048x1024.size a
  hwx1_7 : ∀ i : grid1.Coords, EltTy.bits .f32 = 32 ∨ (Rect.block (s := S2x2048x1024) S1x512x1024.size (cc1_transform_7 i) (hinb1_7 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024 : Shape := ⟨1, ![1024]⟩
abbrev S2048x1024 : Shape := ⟨2, ![2048, 1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S1024x1024, .f32⟩
  | .hbm, ⟨8, _⟩ => ⟨S1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S2x2048x2048, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x2048, .f32⟩
  | .hbm, ⟨52, _⟩ => ⟨S2x2048x1, .f32⟩
  | .hbm, ⟨53, _⟩ => ⟨S_, .f32⟩
  | .hbm, ⟨54, _⟩ => ⟨S2x2048x1, .f32⟩
  | .hbm, ⟨55, _⟩ => ⟨S2x2048x1, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S1x1x1024, .f32⟩
  | .hbm, ⟨65, _⟩ => ⟨S2x2048x1024, .f32⟩
  | .hbm, ⟨66, _⟩ => ⟨S2x2048x1024, .f32⟩
  | .hbm, ⟨67, _⟩ => ⟨S1x1x1024, .f32⟩
  | .hbm, ⟨68, _⟩ => ⟨S2x2048x1024, .f32⟩
  | .hbm, ⟨69, _⟩ => ⟨S2x2048x1024, .f32⟩
  | .hbm, ⟨70, _⟩ => ⟨S2x2048x16x64, .f32⟩
  | .hbm, ⟨71, _⟩ => ⟨S2x16x2048x64, .f32⟩
  | .hbm, ⟨72, _⟩ => ⟨S2x2048x16x64, .f32⟩
  | .hbm, ⟨73, _⟩ => ⟨S2x16x2048x64, .f32⟩
  | .hbm, ⟨74, _⟩ => ⟨S2x2048x16x64, .f32⟩
  | .hbm, ⟨75, _⟩ => ⟨S2x16x2048x64, .f32⟩
  | .hbm, ⟨76, _⟩ => ⟨S2x16x2048x2048, .f32⟩
  | .hbm, ⟨77, _⟩ => ⟨S_, .f32⟩
  | .hbm, ⟨78, _⟩ => ⟨S2x16x2048x2048, .f32⟩
  | .hbm, ⟨79, _⟩ => ⟨S2x16x2048x2048, .f32⟩
  | .hbm, ⟨80, _⟩ => ⟨S_, .f32⟩
  | .hbm, ⟨81, _⟩ => ⟨S2x16x2048, .f32⟩
  | .hbm, ⟨82, _⟩ => ⟨S_, .f32⟩
  | .hbm, ⟨83, _⟩ => ⟨S2x16x2048, .f32⟩
  | .hbm, ⟨84, _⟩ => ⟨S2x16x2048, .f32⟩
  | .hbm, ⟨85, _⟩ => ⟨S2x16x2048x1, .f32⟩
  | .hbm, ⟨86, _⟩ => ⟨S2x16x2048x2048, .f32⟩
  | .hbm, ⟨87, _⟩ => ⟨S2x16x2048x2048, .f32⟩
  | .hbm, ⟨88, _⟩ => ⟨S2x16x2048x2048, .f32⟩
  | .hbm, ⟨89, _⟩ => ⟨S_, .f32⟩
  | .hbm, ⟨90, _⟩ => ⟨S2x16x2048, .f32⟩
  | .hbm, ⟨91, _⟩ => ⟨S2x16x2048x1, .f32⟩
  | .hbm, ⟨92, _⟩ => ⟨S2x16x2048x2048, .f32⟩
  | .hbm, ⟨93, _⟩ => ⟨S2x16x2048x2048, .f32⟩
  | .hbm, ⟨94, _⟩ => ⟨S2x16x2048x64, .f32⟩
  | .hbm, ⟨95, _⟩ => ⟨S2x2048x16x64, .f32⟩
  | .hbm, ⟨96, _⟩ => ⟨S2x2048x1024, .f32⟩
  | .hbm, ⟨97, _⟩ => ⟨S2x2048x1024, .f32⟩
  | .hbm, ⟨98, _⟩ => ⟨S1x1x1024, .f32⟩
  | .hbm, ⟨99, _⟩ => ⟨S2x2048x1024, .f32⟩
  | .hbm, ⟨100, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]

class Facts₀ : Prop where
  reducesTo_S2x2048x1024_S2x2048_d2 : S2x2048x1024.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x1024_0_1_2 : S2x2048x1.BroadcastsInDim S2x2048x1024 (![0, 1, 2] : Fin 3 → Fin S2x2048x1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  slices_S2x2048x2048_S2x2048x1024_0_0_0 : S2x2048x2048.Slices ![0, 0, 0] S2x2048x1024
  slices_S2x2048x2048_S2x2048x1024_0_0_1024 : S2x2048x2048.Slices ![0, 0, 1024] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S2048x1024_S2x2048x2048_2_1_01_0_n_n_wf : DotDims.WF S2x2048x1024 S2048x1024 S2x2048x2048 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S2048x1024_S2x2048x2048_2_1_01_0_n_n : DotDims S2x2048x1024 S2048x1024 S2x2048x2048 where
  lhsContracting := [2]
  rhsContracting := [1]
  lhsNonContracting := [0, 1]
  rhsNonContracting := [0]
  lhsBatch := []
  rhsBatch := []
  wf := dot_S2x2048x1024_S2048x1024_S2x2048x2048_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.RunValue.lean ====
/-
  The idealized kernel program's run with its result named: every weakly fair execution terminates without a fault,
  the result buffer holds what the second kernel's write-backs leave in it, and the arguments are as launched.
-/
import proofs.«106553_j9302899163605_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's four segments, the last thread state read against the final state: the result
    buffer is among the buffers that state holds, at the contents the last boundary names. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunV

end
-- ==== Proof.Spec.lean ====
/-
  The mathematical specification of the result, index by index, on the extended reals.

  Queries are the layer-normalised rows of `x`; the context is projected by `W_kv` into 2048 channels per token, the
  first 1024 of which, layer-normalised, are the keys and the last 1024 the values. Channel `64·h + d` belongs to head
  `h`, lane `d`. Per batch entry and head, the scores of a query token against every context token are the scaled
  inner products over the 64 lanes; their softmax along the context tokens weights the values; the heads' outputs,
  side by side again as 1024 channels, are projected by `W_out` and biased by `b_out`.
-/
import Idealize.ShloMosaic.PureOps.Ideal
import Idealize.ShloMosaic.Lib.ValueIdx

noncomputable section

namespace Cert.Spec

open Idealize.ShloMosaic Idealize.ShloMosaic.ValueIdx
open scoped BigOperators

/-- Activations: batch entry, token, channel. -/
abbrev SA : Shape := ⟨3, ![2, 2048, 1024]⟩
/-- A per-channel vector. -/
abbrev SC : Shape := ⟨1, ![1024]⟩
/-- The key/value projection's weight: output channel, input channel. -/
abbrev SWkv : Shape := ⟨2, ![2048, 1024]⟩
/-- The output projection's weight: output channel, input channel. -/
abbrev SWo : Shape := ⟨2, ![1024, 1024]⟩

/-- An array of rank 3 given by its entries. -/
def arr3 {α : Type} {a b c : ℕ} (f : Fin a → Fin b → Fin c → α) : (⟨3, ![a, b, c]⟩ : Shape).Idx → α :=
  fun i => f ⟨(i 0).val, (i 0).isLt⟩ ⟨(i 1).val, (i 1).isLt⟩ ⟨(i 2).val, (i 2).isLt⟩

theorem arr3_ix3 {α : Type} {a b c : ℕ} (f : Fin a → Fin b → Fin c → α) (p : Fin a) (q : Fin b) (r : Fin c) :
    arr3 f (ix3 p q r) = f p q r := rfl

/-- The number of channels, 1024, as the programs write it. -/
def nCh : EReal := Ideal.ofBits .f32 0x44800000#32
/-- The variance's offset, the single-precision number nearest 10⁻⁶. -/
def eps : EReal := Ideal.ofBits .f32 0x358637BD#32
/-- The scores' scale, 1/8 = 64^(-1/2). -/
def scale : EReal := Ideal.ofBits .f32 0x3E000000#32
/-- The value a row maximum starts from, -∞. -/
def negInf : EReal := Ideal.ofBits .f32 0xFF800000#32

/-- The mean of a row of 1024 channels. -/
def mean (r : Fin 1024 → EReal) : EReal := Ideal.div (∑ k : Fin 1024, r k) nCh
/-- The (biased) variance of a row. -/
def var (r : Fin 1024 → EReal) : EReal := Ideal.div (∑ k : Fin 1024, (r k - mean r) * (r k - mean r)) nCh
/-- Layer normalisation of a row, with gain `g` and bias `b`, at channel `d`. -/
def ln (r : Fin 1024 → EReal) (g b : SC.Idx → EReal) (d : Fin 1024) : EReal :=
  (r d - mean r) * Ideal.rsqrt (var r + eps) * g (ix1 d) + b (ix1 d)

/-- The context projected: channel `e` (of 2048) of token `(b, n)`. -/
def proj (C : SA.Idx → EReal) (W : SWkv.Idx → EReal) (b : Fin 2) (n : Fin 2048) (e : Fin 2048) : EReal :=
  ∑ d : Fin 1024, C (ix3 b n d) * W (ix2 e d)

/-- The keys: the first 1024 projected channels of each context token, layer-normalised. -/
def keys (C : SA.Idx → EReal) (W : SWkv.Idx → EReal) (gk bk : SC.Idx → EReal) : SA.Idx → EReal :=
  arr3 fun b n d => ln (fun e => proj C W b n ⟨e.val, by omega⟩) gk bk d

/-- The values: the last 1024 projected channels of each context token. -/
def vals (C : SA.Idx → EReal) (W : SWkv.Idx → EReal) : SA.Idx → EReal :=
  arr3 fun b n d => proj C W b n ⟨1024 + d.val, by omega⟩

/-- Lane `d` of head `h` is channel `64·h + d`. -/
def hd (h : Fin 16) (d : Fin 64) : Fin 1024 := ⟨64 * h.val + d.val, by omega⟩

/-- The query row of token `(b, i)`: the layer-normalised row of `x`. -/
def qRow (X : SA.Idx → EReal) (gq bq : SC.Idx → EReal) (b : Fin 2) (i : Fin 2048) : Fin 1024 → EReal :=
  ln (fun d => X (ix3 b i d)) gq bq

/-- The maximum of a row of scores, from -∞. -/
def rowMax (s : Fin 2048 → EReal) : EReal := (Finset.univ : Finset (Fin 2048)).fold max negInf s
/-- The exponential weights of a row of scores, shifted by the row's maximum. -/
def wexp (s : Fin 2048 → EReal) (j : Fin 2048) : EReal := Ideal.exp (s j - rowMax s)
/-- The softmax of a row of scores. -/
def softmax (s : Fin 2048 → EReal) (j : Fin 2048) : EReal := Ideal.div (wexp s j) (∑ k : Fin 2048, wexp s k)

/-- One head for one query token, from the head's 64 query lanes `qh` and the head's key and value lanes of the 2048
    context tokens: the score against context token `j` is the scaled inner product over the lanes, and the output at
    lane `d` is the values' lane `d` weighted by the softmax of the scores along the context tokens. -/
def headCore (qh : Fin 64 → EReal) (kh vh : Fin 2048 → Fin 64 → EReal) (d : Fin 64) : EReal :=
  ∑ j : Fin 2048, softmax (fun j' => (∑ e : Fin 64, qh e * kh j' e) * scale) j * vh j d

/-- Head `h`'s output at lane `d` for a query row `q` against one batch entry's key rows `kb` and value rows `vb`
    (context token, channel): the head's lanes are channels `64·h + e`. -/
def headOut (q : Fin 1024 → EReal) (kb vb : Fin 2048 → Fin 1024 → EReal) (h : Fin 16) (d : Fin 64) : EReal :=
  headCore (fun e => q (hd h e)) (fun j e => kb j (hd h e)) (fun j e => vb j (hd h e)) d

/-- The heads' outputs side by side: channel `e` is lane `e % 64` of head `e / 64`. -/
def merged (q : Fin 1024 → EReal) (kb vb : Fin 2048 → Fin 1024 → EReal) (e : Fin 1024) : EReal :=
  headOut q kb vb ⟨e.val / 64, by omega⟩ ⟨e.val % 64, Nat.mod_lt _ (by decide)⟩

/-- The output projection of a row `a` of merged heads: channel `e` is `Σ_d a d · Wo (e, d)` plus the bias. -/
def outProj (a : Fin 1024 → EReal) (Wo : SWo.Idx → EReal) (bo : SC.Idx → EReal) (e : Fin 1024) : EReal :=
  (∑ d : Fin 1024, a d * Wo (ix2 e d)) + bo (ix1 e)

/-- The attention block from the query input `X` and given key and value arrays: per batch entry `b` and query token
    `i`, the merged heads of the layer-normalised row of `X` against that batch entry's keys and values, projected by
    `Wo` and biased. -/
def attn (X : SA.Idx → EReal) (gq bq : SC.Idx → EReal) (K V : SA.Idx → EReal) (Wo : SWo.Idx → EReal) (bo : SC.Idx → EReal) :
    SA.Idx → EReal :=
  arr3 fun b i e => outProj (merged (qRow X gq bq b i) (fun j c => K (ix3 b j c)) (fun j c => V (ix3 b j c))) Wo bo e

/-- The whole result as a function of the nine arguments. -/
def result (X C : SA.Idx → EReal) (gq bq gk bk : SC.Idx → EReal) (Wkv : SWkv.Idx → EReal) (Wo : SWo.Idx → EReal)
    (bo : SC.Idx → EReal) : SA.Idx → EReal :=
  attn X gq bq (keys C Wkv gk bk) (vals C Wkv) Wo bo

end Cert.Spec

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KVMatmul.lean ====
/-
  A matrix product that contracts both operands' second axis, into a zero accumulator, read at an entry.

  For a dot whose dimension numbers contract the left operand's columns against the right operand's columns, with no
  batch axis — `[M, K] × [N, K] → [M, N]` — the product accumulated into the zero splat is, at the extended reals,
  the textbook sum: entry `(p, c)` is the sum over `k` of `lhs (p, k) · rhs (c, k)`. The dimension numbers enter
  only through four coordinate facts about the dot's operand indices and the fact that exactly one axis, of extent
  `K`, is contracted; the lemma is general in the extents, the element types and the contraction precision.
-/
import Idealize.ShloMosaic.PureOps.Ideal.Laws
import Idealize.ShloMosaic.Lib.ValueIdx

noncomputable section

namespace Cert.KernelIdeal.KVM

open Idealize.ShloMosaic Idealize.ShloMosaic.ValueIdx
open scoped BigOperators

/-- Entry `(p, c)` of `lhs · rhsᵀ` accumulated into zero is `Σ k, lhs (p, k) · rhs (c, k)`: the dot's sum over its
    one-axis contraction index, re-indexed along the bijection of that index with `Fin K`, each operand index then
    identified by its two coordinates. -/
theorem matmul_nt_zero_ix2 {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (c : Fin N) :
    matmul D prec lhs rhs (constant ⟨2, ![M, N]⟩ .f32 0x00000000#32) (ix2 p c)
      = ∑ k : Fin K, lhs (ix2 p k) * rhs (ix2 c k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.KernelIdeal.KVM

end
-- ==== Proof.PayKV.lean ====
/-
  The key/value projection kernel's arithmetic, read at an index on the extended reals: the two blocks its body
  stores, as the specification's functions of the blocks the body loads.

  The body projects the 512 loaded context rows onto 2048 channels (a product that contracts both operands' second
  axis, into a zero accumulator), layer-normalises the first 1024 channels of each row (row sums with the reduced axis
  kept, spread back over the columns) and passes the last 1024 through. Each step is read at an index: the product is
  the textbook sum, a slice shifts the column, a row sum is the sum over the row's entries, a kept-axis column spread
  over the columns is the column's entry of that row, a gain or bias row spread over the rows is the row's entry of
  that column, and roundings to a narrower format are the identity on the extended reals.
-/
import proofs.«106553_j9302899163605_2_alg».proof.Proof.Gen.KernelIdeal.Skeleton
import proofs.«106553_j9302899163605_2_alg».proof.Proof.Spec
import proofs.«106553_j9302899163605_2_alg».proof.Proof.LibColumn
import proofs.«106553_j9302899163605_2_alg».proof.Proof.KVMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayKV

open Idealize.ShloMosaic Idealize.ShloMosaic.ValueIdx
open Cert.KernelIdeal Cert.KernelIdeal.Gen
open scoped BigOperators

/-! ## The projection -/

/-- The projected block: row `r`, channel `e`, is the inner product of the context block's row `r` with the weight's
    row `e`. The leading unit axis of the loaded block is dropped, the rounding of the operand is the identity, the
    weight's cast is to its own shape, and the product contracts both operands' second axis. -/
theorem pay2_apply (x0 : Vec Ideal S1x512x1024 .f32) (x1 : Vec Ideal S2048x1024 .bf16) (r : Fin 512) (e : Fin 2048) :
    k0_pay2 (F := Ideal) x0 x1 (ix2 r e) = ∑ k : Fin 1024, x0 (ix3 (0 : Fin 1) r k) * x1 (ix2 e k) := by
  unfold k0_pay2
  refine (KVM.matmul_nt_zero_ix2 dot_S512x1024_S2048x1024_S512x2048_1_1_0_0_n_n none rfl rfl
    (fun _ _ => rfl) (fun _ _ => rfl) (fun _ _ => rfl) (fun _ _ => rfl) _ _ r e).trans ?_
  refine Finset.sum_congr rfl fun k _ => ?_
  rw [truncf_apply, shapeCast_1ab_ab_apply]
  refine congrArg _ ?_
  exact shapeCast_apply _ _ _ _ rfl

/-! ## The layer normalisation of a block's rows -/

/-- The reciprocal square root is taken entry by entry. -/
theorem rsqrt_apply {s : Shape} {φ : FTy} (a : FVec Ideal s φ) (i : s.Idx) : rsqrt a i = Ideal.rsqrt (a i) := rfl

/-- The sums of the rows of a `[512, 1024]` matrix, as the kernel's body takes them. -/
def rowSum (v : FVec Ideal S512x1024 .f32) : FVec Ideal S512 .f32 :=
  multiReduction .add [1] S512 v 0x00000000#32 reduces_S512x1024_S512 (.inl rfl) rfl

/-- Row `r`'s sum is the sum of the row's 1024 entries. -/
theorem rowSum_apply (v : FVec Ideal S512x1024 .f32) (r : Fin 512) : rowSum v (ix1 r) = ∑ k : Fin 1024, v (ix2 r k) :=
  (Ideal.multiReduction_add_single v _ reduces_S512x1024_S512 (.inl rfl) rfl (ix1 r)).trans
    (Finset.sum_congr rfl fun k _ => congrArg v (funext fun a => Fin.ext (by
      match a with
      | ⟨0, _⟩ => rfl
      | ⟨1, _⟩ => rfl)))

/-- The layer normalisation of the rows of a `[512, 1024]` matrix `v6` with gain `v26` and bias `v30`, step by step as
    the kernel's body spells it: the row means as a column spread over the columns, the centred entries, the row
    variances likewise, the reciprocal square root of variance plus offset as a column spread over the columns, the
    gain and the bias as rows spread over the rows, and a leading unit axis added. -/
def lnBody (v6 : FVec Ideal S512x1024 .f32) (v26 v30 : Vec Ideal S1024 .f32) : FVec Ideal S1x512x1024 .bf16 :=
  have v8 : FVec Ideal S512 .f32 := rowSum v6
  have v9 : FVec Ideal S512x1 .f32 := shapeCast S512x1 v8 shapeCasts_S512_S512x1
  have cst_5 : Ideal .f32 := Scalar.ofBits .f32 0x44800000#32
  have v10 : FVec Ideal S512x1 .f32 := broadcast S512x1 cst_5
  have v11 : FVec Ideal S512x1 .f32 := divf v9 v10
  have v12 : FVec Ideal S512x1024 .f32 := broadcastTo S512x1024 v11 broadcasts_S512x1_S512x1024
  have v13 : FVec Ideal S512x1024 .f32 := subf v6 v12
  have v14 : FVec Ideal S512x1024 .f32 := mulf v13 v13
  have v15 : FVec Ideal S512 .f32 := rowSum v14
  have v16 : FVec Ideal S512x1 .f32 := shapeCast S512x1 v15 shapeCasts_S512_S512x1
  have cst_7 : Ideal .f32 := Scalar.ofBits .f32 0x44800000#32
  have v17 : FVec Ideal S512x1 .f32 := broadcast S512x1 cst_7
  have v18 : FVec Ideal S512x1 .f32 := divf v16 v17
  have v19 : FVec Ideal S512x1024 .f32 := broadcastTo S512x1024 v11 broadcasts_S512x1_S512x1024
  have v20 : FVec Ideal S512x1024 .f32 := subf v6 v19
  have cst_8 : Ideal .f32 := Scalar.ofBits .f32 0x358637BD#32
  have v21 : FVec Ideal S512x1 .f32 := broadcast S512x1 cst_8
  have v22 : FVec Ideal S512x1 .f32 := addf v18 v21
  have v23 : FVec Ideal S512x1 .f32 := rsqrt v22
  have v24 : FVec Ideal S512x1024 .f32 := broadcastTo S512x1024 v23 broadcasts_S512x1_S512x1024
  have v25 : FVec Ideal S512x1024 .f32 := mulf v20 v24
  have v27 : FVec Ideal S1x1024 .f32 := shapeCast S1x1024 v26 shapeCasts_S1024_S1x1024
  have v28 : FVec Ideal S512x1024 .f32 := broadcastTo S512x1024 v27 broadcasts_S1x1024_S512x1024
  have v29 : FVec Ideal S512x1024 .f32 := mulf v25 v28
  have v31 : FVec Ideal S1x1024 .f32 := shapeCast S1x1024 v30 shapeCasts_S1024_S1x1024
  have v32 : FVec Ideal S512x1024 .f32 := broadcastTo S512x1024 v31 broadcasts_S1x1024_S512x1024
  have v33 : FVec Ideal S512x1024 .f32 := addf v29 v32
  have v34 : FVec Ideal S512x1024 .bf16 := truncf .bf16 v33 bitsLt_bf16_f32
  have v37 : FVec Ideal S1x512x1024 .bf16 := shapeCast S1x512x1024 v34 shapeCasts_S512x1024_S1x512x1024
  v37

/-- The keys block the body stores is that layer normalisation of the first 1024 columns of the projected block: the
    two spell the same steps. -/
theorem pay3_eq (x0 : Vec Ideal S1x512x1024 .f32) (x1 : Vec Ideal S2048x1024 .bf16) (x2 x3 : Vec Ideal S1024 .f32) :
    k0_pay3 (F := Ideal) x0 x1 x2 x3
      = lnBody (extractStridedSlice S512x1024 ![0, 0] (k0_pay2 x0 x1) slices_S512x2048_o0_0_S512x1024) x2 x3 := rfl

/-- Row `r`, channel `d`, of the normalised block is the specification's layer normalisation of the matrix's row `r`. -/
theorem lnBody_apply (v6 : FVec Ideal S512x1024 .f32) (x2 x3 : Vec Ideal S1024 .f32) (r : Fin 512) (d : Fin 1024) :
    lnBody v6 x2 x3 (ix3 (0 : Fin 1) r d) = Spec.ln (fun e => v6 (ix2 r e)) x2 x3 d := by
  unfold lnBody Spec.ln Spec.var Spec.mean Spec.nCh Spec.eps
  simp only [shapeCast_ab_1ab_apply, truncf_apply, addf_apply, mulf_apply, subf_apply, divf_apply, rsqrt_apply,
    broadcastTo_1b_ab_apply, shapeCast_a_1a_apply, LibColumn.broadcastTo_a1_ab_apply, LibColumn.shapeCast_a_a1_apply,
    rowSum_apply, broadcast_apply, Ideal.ofBits_def]

/-! ## The key/value projection kernel -/

/-- The keys block a grid point stores: row `r`, channel `d`, is the layer normalisation of the first 1024 projected
    channels of the context block's row `r`. -/
theorem keys_apply (x0 : Vec Ideal S1x512x1024 .f32) (x1 : Vec Ideal S2048x1024 .bf16) (x2 x3 : Vec Ideal S1024 .f32)
    (r : Fin 512) (d : Fin 1024) :
    k0_pay3 (F := Ideal) x0 x1 x2 x3 (ix3 (0 : Fin 1) r d)
      = Spec.ln (fun e : Fin 1024 => ∑ k : Fin 1024, x0 (ix3 (0 : Fin 1) r k) * x1 (ix2 (⟨e.val, by omega⟩ : Fin 2048) k)) x2 x3 d := by
  rw [pay3_eq, lnBody_apply]
  refine congrArg (fun row : Fin 1024 → EReal => Spec.ln row x2 x3 d) (funext fun e => ?_)
  exact (slice2_axis1_apply 0 _ _ r e (⟨e.val, by omega⟩ : Fin 2048) (Nat.zero_add _).symm).trans (pay2_apply x0 x1 r _)

/-- The values block a grid point stores: row `r`, channel `d`, is projected channel `1024 + d` of the context block's row `r`. -/
theorem vals_apply (x0 : Vec Ideal S1x512x1024 .f32) (x1 : Vec Ideal S2048x1024 .bf16) (r : Fin 512) (d : Fin 1024) :
    k0_pay1 (F := Ideal) (k0_pay4 x0 x1) (ix3 (0 : Fin 1) r d)
      = ∑ k : Fin 1024, x0 (ix3 (0 : Fin 1) r k) * x1 (ix2 (⟨1024 + d.val, by omega⟩ : Fin 2048) k) := by
  unfold k0_pay1 k0_pay4
  refine (shapeCast_ab_1ab_apply _ _ (0 : Fin 1) r d).trans ?_
  rw [truncf_apply]
  exact (slice2_axis1_apply 1024 _ _ r d (⟨1024 + d.val, by omega⟩ : Fin 2048) rfl).trans (pay2_apply x0 x1 r _)

end Cert.KernelIdeal.PayKV

end
-- ==== Proof.Region0.lean ====
/-
  The first kernel's two output arrays after its run: the keys and the values of the context, as functions of the
  arrays the kernel reads.

  Grid point `t` (of 8) works on batch entry `t / 4` and context rows `512·(t % 4) … 512·(t % 4) + 511`: it is given
  that row block of the context and the whole projection weight, gain and bias, and writes back the same row block of
  the keys and of the values. Each block it writes back is, row by row, the specification's function (Proof/PayKV.lean
  at the blocks it is given), and the eight row blocks cover each output array.
-/
import proofs.«106553_j9302899163605_2_alg».proof.Proof.Gen.KernelIdeal.Frame
import proofs.«106553_j9302899163605_2_alg».proof.Proof.Spec
import proofs.«106553_j9302899163605_2_alg».proof.Proof.PayKV
import Idealize.ShloMosaic.Lib.Pipeline.Value

set_option maxRecDepth 16384

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## One grid point, at an index -/

/-- The keys block a point leaves: row `r`, channel `d`. -/
theorem keys_point (x0 : Vec Ideal S1x512x1024 .f32) (x1 : Vec Ideal S2048x1024 .bf16) (x2 x3 : Vec Ideal S1024 .f32)
    (r : Fin 512) (d : Fin 1024) :
    out0_4 (F := Ideal) x0 x1 x2 x3 (ix3 (0 : Fin 1) r d)
      = Spec.ln (fun e : Fin 1024 => ∑ k : Fin 1024, x0 (ix3 (0 : Fin 1) r k) * x1 (ix2 (⟨e.val, by omega⟩ : Fin 2048) k)) x2 x3 d := by
  unfold out0_4
  rw [View.canon_unit_zero hz3]
  simp only [View.ld_unit_zero (S := S1x512x1024) hz3, View.ld_unit_zero (S := S2048x1024) hz2, View.ld_unit_zero (S := S1024) hz1]
  exact PayKV.keys_apply x0 x1 x2 x3 r d

/-- The values block a point leaves: row `r`, channel `d`. -/
theorem vals_point (x0 : Vec Ideal S1x512x1024 .f32) (x1 : Vec Ideal S2048x1024 .bf16) (x2 x3 : Vec Ideal S1024 .f32)
    (r : Fin 512) (d : Fin 1024) :
    out0_5 (F := Ideal) x0 x1 x2 x3 (ix3 (0 : Fin 1) r d)
      = ∑ k : Fin 1024, x0 (ix3 (0 : Fin 1) r k) * x1 (ix2 (⟨1024 + d.val, by omega⟩ : Fin 2048) k) := by
  unfold out0_5
  rw [View.canon_unit_zero hz3]
  simp only [View.ld_unit_zero (S := S1x512x1024) hz3, View.ld_unit_zero (S := S2048x1024) hz2]
  exact PayKV.vals_apply x0 x1 r d

/-! ## The windows' index maps over the grid -/

theorem hi0_0 : ∀ t : Fin cfg0.N, win0_0.index t 0 = t.val / 4 :=
  (by decide +kernel : ∀ t : Fin grid0.N, win0_0.index t 0 = t.val / 4)
theorem hi0_1 : ∀ t : Fin cfg0.N, win0_0.index t 1 = t.val % 4 :=
  (by decide +kernel : ∀ t : Fin grid0.N, win0_0.index t 1 = t.val % 4)
theorem hi0_2 : ∀ t : Fin cfg0.N, win0_0.index t 2 = 0 :=
  (by decide +kernel : ∀ t : Fin grid0.N, win0_0.index t 2 = 0)
theorem hi1_0 : ∀ t : Fin cfg0.N, win0_1.index t 0 = 0 :=
  (by decide +kernel : ∀ t : Fin grid0.N, win0_1.index t 0 = 0)
theorem hi1_1 : ∀ t : Fin cfg0.N, win0_1.index t 1 = 0 :=
  (by decide +kernel : ∀ t : Fin grid0.N, win0_1.index t 1 = 0)
theorem hi2_0 : ∀ t : Fin cfg0.N, win0_2.index t 0 = 0 :=
  (by decide +kernel : ∀ t : Fin grid0.N, win0_2.index t 0 = 0)
theorem hi3_0 : ∀ t : Fin cfg0.N, win0_3.index t 0 = 0 :=
  (by decide +kernel : ∀ t : Fin grid0.N, win0_3.index t 0 = 0)
theorem hi4_0 : ∀ t : Fin cfg0.N, win0_4.index t 0 = t.val / 4 :=
  (by decide +kernel : ∀ t : Fin grid0.N, win0_4.index t 0 = t.val / 4)
theorem hi4_1 : ∀ t : Fin cfg0.N, win0_4.index t 1 = t.val % 4 :=
  (by decide +kernel : ∀ t : Fin grid0.N, win0_4.index t 1 = t.val % 4)
theorem hi4_2 : ∀ t : Fin cfg0.N, win0_4.index t 2 = 0 :=
  (by decide +kernel : ∀ t : Fin grid0.N, win0_4.index t 2 = 0)
theorem hi5_0 : ∀ t : Fin cfg0.N, win0_5.index t 0 = t.val / 4 :=
  (by decide +kernel : ∀ t : Fin grid0.N, win0_5.index t 0 = t.val / 4)
theorem hi5_1 : ∀ t : Fin cfg0.N, win0_5.index t 1 = t.val % 4 :=
  (by decide +kernel : ∀ t : Fin grid0.N, win0_5.index t 1 = t.val % 4)
theorem hi5_2 : ∀ t : Fin cfg0.N, win0_5.index t 2 = 0 :=
  (by decide +kernel : ∀ t : Fin grid0.N, win0_5.index t 2 = 0)

variable (V : (c : Dev nD) → (b : Ref sig .tc) → Buf (Elt Ideal) ((c : Thread nD τ).loc b))

/-! ## Each window's block, read where it sits in its array -/

/-- The context block at a point: batch entry `t / 4`, rows `512·(t % 4) …`, every channel. -/
theorem iblk_0_apply (c : Dev nD) (t : Fin cfg0.N) (x : S1x512x1024.Idx) (k : S2x2048x1024.Idx) (hk0 : (k 0).val = (t.val / 4) * 1 + (x 0).val) (hk1 : (k 1).val = (t.val % 4) * 512 + (x 1).val) (hk2 : (k 2).val = 0 * 1024 + (x 2).val) :
    (iblk0 V c 0 t : Vec Ideal S1x512x1024 .f32) x = (V c main_arg1 : S2x2048x1024.Idx → EReal) k := by
  unfold iblk0
  rw [View.read_apply]
  show V c main_arg1 _ = V c main_arg1 _
  refine congrArg (V c main_arg1) (funext fun a => Fin.ext ?_)
  match a with
    | ⟨0, _⟩ => show win0_0.index t 0 * 1 + 1 * (x 0).val = (k 0).val; rw [hk0, hi0_0 t]; omega
    | ⟨1, _⟩ => show win0_0.index t 1 * 512 + 1 * (x 1).val = (k 1).val; rw [hk1, hi0_1 t]; omega
    | ⟨2, _⟩ => show win0_0.index t 2 * 1024 + 1 * (x 2).val = (k 2).val; rw [hk2, hi0_2 t]; omega

/-- The projection weight is staged whole. -/
theorem iblk_1_apply (c : Dev nD) (t : Fin cfg0.N) (x : S2048x1024.Idx) (k : S2048x1024.Idx) (hk0 : (k 0).val = 0 * 2048 + (x 0).val) (hk1 : (k 1).val = 0 * 1024 + (x 1).val) :
    (iblk0 V c 1 t : Vec Ideal S2048x1024 .bf16) x = (V c main_v0 : S2048x1024.Idx → EReal) k := by
  unfold iblk0
  rw [View.read_apply]
  show V c main_v0 _ = V c main_v0 _
  refine congrArg (V c main_v0) (funext fun a => Fin.ext ?_)
  match a with
    | ⟨0, _⟩ => show win0_1.index t 0 * 2048 + 1 * (x 0).val = (k 0).val; rw [hk0, hi1_0 t]; omega
    | ⟨1, _⟩ => show win0_1.index t 1 * 1024 + 1 * (x 1).val = (k 1).val; rw [hk1, hi1_1 t]; omega

/-- The key gain is staged whole. -/
theorem iblk_2_apply (c : Dev nD) (t : Fin cfg0.N) (x : S1024.Idx) (k : S1024.Idx) (hk0 : (k 0).val = 0 * 1024 + (x 0).val) :
    (iblk0 V c 2 t : Vec Ideal S1024 .f32) x = (V c main_arg4 : S1024.Idx → EReal) k := by
  unfold iblk0
  rw [View.read_apply]
  show V c main_arg4 _ = V c main_arg4 _
  refine congrArg (V c main_arg4) (funext fun a => Fin.ext ?_)
  match a with
    | ⟨0, _⟩ => show win0_2.index t 0 * 1024 + 1 * (x 0).val = (k 0).val; rw [hk0, hi2_0 t]; omega

/-- The key bias is staged whole. -/
theorem iblk_3_apply (c : Dev nD) (t : Fin cfg0.N) (x : S1024.Idx) (k : S1024.Idx) (hk0 : (k 0).val = 0 * 1024 + (x 0).val) :
    (iblk0 V c 3 t : Vec Ideal S1024 .f32) x = (V c main_arg5 : S1024.Idx → EReal) k := by
  unfold iblk0
  rw [View.read_apply]
  show V c main_arg5 _ = V c main_arg5 _
  refine congrArg (V c main_arg5) (funext fun a => Fin.ext ?_)
  match a with
    | ⟨0, _⟩ => show win0_3.index t 0 * 1024 + 1 * (x 0).val = (k 0).val; rw [hk0, hi3_0 t]; omega

theorem iblk_1_eq (c : Dev nD) (t : Fin cfg0.N) : (iblk0 V c 1 t : Vec Ideal S2048x1024 .bf16) = V c main_v0 :=
  funext fun x => iblk_1_apply V c t x x (by omega) (by omega)
theorem iblk_2_eq (c : Dev nD) (t : Fin cfg0.N) : (iblk0 V c 2 t : Vec Ideal S1024 .f32) = V c main_arg4 :=
  funext fun x => iblk_2_apply V c t x x (by omega)
theorem iblk_3_eq (c : Dev nD) (t : Fin cfg0.N) : (iblk0 V c 3 t : Vec Ideal S1024 .f32) = V c main_arg5 :=
  funext fun x => iblk_3_apply V c t x x (by omega)

/-- The batch entry and the array row of the block's row `r` at point `t`. -/
abbrev bOf (t : Fin cfg0.N) : Fin 2 := ⟨t.val / 4, by have := t.isLt; have hN : cfg0.N = 8 := N_0; omega⟩
abbrev nOf (t : Fin cfg0.N) (r : Fin 512) : Fin 2048 := ⟨512 * (t.val % 4) + r.val, by have := r.isLt; omega⟩

/-- The context block's row `r` is row `(t / 4, 512·(t % 4) + r)` of the context. -/
theorem crow_eq (c : Dev nD) (t : Fin cfg0.N) (r : Fin 512) (k : Fin 1024) :
    (iblk0 V c 0 t : Vec Ideal S1x512x1024 .f32) (ix3 (0 : Fin 1) r k)
      = (V c main_arg1 : Spec.SA.Idx → EReal) (ix3 (bOf t) (nOf t r) k) :=
  iblk_0_apply V c t (ix3 (0 : Fin 1) r k) (ix3 (bOf t) (nOf t r) k)
    (by show t.val / 4 = t.val / 4 * 1 + 0; omega) (by show 512 * (t.val % 4) + r.val = t.val % 4 * 512 + r.val; omega)
    (by show k.val = 0 * 1024 + k.val; omega)

/-! ## What a grid point writes back -/

abbrev GK (c : Dev nD) : Spec.SA.Idx → EReal := Spec.keys (V c main_arg1) (V c main_v0) (V c main_arg4) (V c main_arg5)
abbrev GV (c : Dev nD) : Spec.SA.Idx → EReal := Spec.vals (V c main_arg1) (V c main_v0)

theorem outs4_apply (c : Dev nD) (t : Fin cfg0.N) (j : S1x512x1024.Idx) (k : Spec.SA.Idx)
    (hk0 : (k 0).val = t.val / 4) (hk1 : (k 1).val = 512 * (t.val % 4) + (j 1).val) (hk2 : (k 2).val = (j 2).val) :
    out0_4 (iblk0 V c 0 t) (iblk0 V c 1 t) (iblk0 V c 2 t) (iblk0 V c 3 t) j = GK V c k := by
  obtain ⟨u, r, e, rfl⟩ : ∃ (u : Fin 1) (r : Fin 512) (e : Fin 1024), j = ix3 u r e := ⟨j 0, j 1, j 2, eq_ix3 j⟩
  obtain rfl : u = 0 := Subsingleton.elim _ _
  obtain rfl : k = ix3 (bOf t) (nOf t r) e := funext fun a => Fin.ext (by
    match a with
    | ⟨0, _⟩ => exact hk0
    | ⟨1, _⟩ => exact hk1
    | ⟨2, _⟩ => exact hk2)
  rw [keys_point, iblk_1_eq, iblk_2_eq, iblk_3_eq]
  simp only [crow_eq]
  rfl

theorem outs5_apply (c : Dev nD) (t : Fin cfg0.N) (j : S1x512x1024.Idx) (k : Spec.SA.Idx)
    (hk0 : (k 0).val = t.val / 4) (hk1 : (k 1).val = 512 * (t.val % 4) + (j 1).val) (hk2 : (k 2).val = (j 2).val) :
    out0_5 (iblk0 V c 0 t) (iblk0 V c 1 t) (iblk0 V c 2 t) (iblk0 V c 3 t) j = GV V c k := by
  obtain ⟨u, r, e, rfl⟩ : ∃ (u : Fin 1) (r : Fin 512) (e : Fin 1024), j = ix3 u r e := ⟨j 0, j 1, j 2, eq_ix3 j⟩
  obtain rfl : u = 0 := Subsingleton.elim _ _
  obtain rfl : k = ix3 (bOf t) (nOf t r) e := funext fun a => Fin.ext (by
    match a with
    | ⟨0, _⟩ => exact hk0
    | ⟨1, _⟩ => exact hk1
    | ⟨2, _⟩ => exact hk2)
  rw [vals_point, iblk_1_eq]
  simp only [crow_eq]
  rfl

theorem flushed4_eq (c : Dev nD) (t : Fin cfg0.N) :
    (dat0 (F := Ideal) V c).flushed 4 t = ((cfg0.win 4).blk t).view.read (Elt Ideal) (GK V c) := by
  show (cfg0.win 4).cut (grid0.coords t) ((dat0 V c).after 4 t) = _
  rw [after0_4]
  funext j
  rw [View.read_apply]
  refine outs4_apply V c t j _ ?_ ?_ ?_
  · show win0_4.index t 0 * 1 + 1 * (j 0).val = t.val / 4
    have hj0 : (j 0).val < 1 := (j 0).isLt
    rw [hi4_0 t]; omega
  · show win0_4.index t 1 * 512 + 1 * (j 1).val = 512 * (t.val % 4) + (j 1).val
    rw [hi4_1 t]; omega
  · show win0_4.index t 2 * 1024 + 1 * (j 2).val = (j 2).val
    rw [hi4_2 t]; omega

theorem flushed5_eq (c : Dev nD) (t : Fin cfg0.N) :
    (dat0 (F := Ideal) V c).flushed 5 t = ((cfg0.win 5).blk t).view.read (Elt Ideal) (GV V c) := by
  show (cfg0.win 5).cut (grid0.coords t) ((dat0 V c).after 5 t) = _
  rw [after0_5]
  funext j
  rw [View.read_apply]
  refine outs5_apply V c t j _ ?_ ?_ ?_
  · show win0_5.index t 0 * 1 + 1 * (j 0).val = t.val / 4
    have hj0 : (j 0).val < 1 := (j 0).isLt
    rw [hi5_0 t]; omega
  · show win0_5.index t 1 * 512 + 1 * (j 1).val = 512 * (t.val % 4) + (j 1).val
    rw [hi5_1 t]; omega
  · show win0_5.index t 2 * 1024 + 1 * (j 2).val = (j 2).val
    rw [hi5_2 t]; omega

/-! ## The eight row blocks cover each output array -/

theorem keys_arr (c : Dev nD) :
    (dat0 (F := Ideal) V c).arrAt 4 cfg0.N = Spec.keys (V c main_arg1) (V c main_v0) (V c main_arg4) (V c main_arg5) :=
  (dat0 V c).arrAt_eq_of_cover 4 (GK V c) (fun t _ => flushed4_eq V c t) fun i => by
    have hN : cfg0.N = 8 := N_0
    have h0 : (i 0).val < 2 := (i 0).isLt
    have h1 : (i 1).val < 2048 := (i 1).isLt
    have h2 : (i 2).val < 1024 := (i 2).isLt
    have ht : 4 * (i 0).val + (i 1).val / 512 < cfg0.N := by omega
    refine ⟨⟨4 * (i 0).val + (i 1).val / 512, ht⟩, flush0_4 _, ?_⟩
    show i ∈ ((View.whole main_v1_0).slice (win0_4.rect ⟨4 * (i 0).val + (i 1).val / 512, ht⟩)).set
    rw [View.set_slice_whole, Rect.mem_set_unit]
    intro a
    match a with
    | ⟨0, _⟩ =>
      show win0_4.index _ 0 * 1 ≤ (i 0).val ∧ (i 0).val < win0_4.index _ 0 * 1 + 1
      rw [hi4_0]; dsimp only; omega
    | ⟨1, _⟩ =>
      show win0_4.index _ 1 * 512 ≤ (i 1).val ∧ (i 1).val < win0_4.index _ 1 * 512 + 512
      rw [hi4_1]; dsimp only; omega
    | ⟨2, _⟩ =>
      show win0_4.index _ 2 * 1024 ≤ (i 2).val ∧ (i 2).val < win0_4.index _ 2 * 1024 + 1024
      rw [hi4_2]; dsimp only; omega

theorem vals_arr (c : Dev nD) :
    (dat0 (F := Ideal) V c).arrAt 5 cfg0.N = Spec.vals (V c main_arg1) (V c main_v0) :=
  (dat0 V c).arrAt_eq_of_cover 5 (GV V c) (fun t _ => flushed5_eq V c t) fun i => by
    have hN : cfg0.N = 8 := N_0
    have h0 : (i 0).val < 2 := (i 0).isLt
    have h1 : (i 1).val < 2048 := (i 1).isLt
    have h2 : (i 2).val < 1024 := (i 2).isLt
    have ht : 4 * (i 0).val + (i 1).val / 512 < cfg0.N := by omega
    refine ⟨⟨4 * (i 0).val + (i 1).val / 512, ht⟩, flush0_5 _, ?_⟩
    show i ∈ ((View.whole main_v1_1).slice (win0_5.rect ⟨4 * (i 0).val + (i 1).val / 512, ht⟩)).set
    rw [View.set_slice_whole, Rect.mem_set_unit]
    intro a
    match a with
    | ⟨0, _⟩ =>
      show win0_5.index _ 0 * 1 ≤ (i 0).val ∧ (i 0).val < win0_5.index _ 0 * 1 + 1
      rw [hi5_0]; dsimp only; omega
    | ⟨1, _⟩ =>
      show win0_5.index _ 1 * 512 ≤ (i 1).val ∧ (i 1).val < win0_5.index _ 1 * 512 + 512
      rw [hi5_1]; dsimp only; omega
    | ⟨2, _⟩ =>
      show win0_5.index _ 2 * 1024 ≤ (i 2).val ∧ (i 2).val < win0_5.index _ 2 * 1024 + 1024
      rw [hi5_2]; dsimp only; omega

end Cert.KernelIdeal.KV

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.LibMatmulNT.lean ====
/-
  A matrix product against a transposed right operand, into a zero accumulator, read at an entry.

  For a dot whose dimension numbers contract the left operand's columns against the right operand's COLUMNS, with no
  batch axis — `[M, K] × [N, K] → [M, N]`, the product `lhs · rhsᵀ` — the product accumulated into the zero splat is,
  at the extended reals, the textbook sum: entry `(p, c)` is the sum over `k` of `lhs (p, k) · rhs (c, k)`. The
  dimension numbers enter only through four coordinate facts about the dot's operand indices (which a literal record
  proves by evaluating its membership tests) and the fact that exactly one axis, of extent `K`, is contracted; the
  lemma is general in the extents, the element types and the contraction precision, so it serves every such product of
  a kernel body (scores of queries against keys, a projection by a weight stored output-channel first).
-/
import Idealize.ShloMosaic.PureOps.Ideal.Laws
import Idealize.ShloMosaic.Lib.ValueIdx

noncomputable section

namespace Cert.LibMatmulNT

open Idealize.ShloMosaic Idealize.ShloMosaic.ValueIdx
open scoped BigOperators

/-- Entry `(p, c)` of `lhs · rhsᵀ` accumulated into zero is `Σ k, lhs (p, k) · rhs (c, k)`: the dot's sum over its
    one-axis contraction index, re-indexed along the bijection of that index with `Fin K`, each operand index then
    identified by its two coordinates. -/
theorem matmul_nt_zero_ix2 {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (c : Fin N) :
    matmul D prec lhs rhs (constant ⟨2, ![M, N]⟩ .f32 0x00000000#32) (ix2 p c)
      = ∑ k : Fin K, lhs (ix2 p k) * rhs (ix2 c k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.LibMatmulNT

end
-- ==== Proof.PayRow.lean ====
/-
  Reductions along the rows of a matrix, read at a row, on the extended reals: the sum and the maximum of a
  `vector.multi_reduction` over axis 1 of an `[a, b]` array are the sum and the fold of `max` over the row's `b` entries.
-/
import Idealize.ShloMosaic.PureOps.Ideal.Laws
import Idealize.ShloMosaic.Lib.ValueIdx

noncomputable section

namespace Cert.KernelIdeal.PayRow

open Idealize.ShloMosaic Idealize.ShloMosaic.ValueIdx
open scoped BigOperators

variable {φ : FTy}

/-- Over a row reduction of a matrix, the source index over row `r` with column `k` inserted is `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by
    match c with
    | ⟨0, _⟩ => rfl
    | ⟨1, _⟩ => rfl)

/-- A row sum read at row `r`. -/
theorem rowSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A row maximum read at row `r`: the fold of `max` from the accumulator's value over the row. -/
theorem rowMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f)
      (funext fun k => congrArg src (lift_row h r k)))

end Cert.KernelIdeal.PayRow

end
-- ==== Proof.PayHead.lean ====
/-
  One attention head of the fused kernel, stage by stage, read at an index on the extended reals.
-/
import proofs.«106553_j9302899163605_2_alg».proof.Proof.Gen.KernelIdeal.Skeleton
import proofs.«106553_j9302899163605_2_alg».proof.Proof.Spec
import proofs.«106553_j9302899163605_2_alg».proof.Proof.LibColumn
import proofs.«106553_j9302899163605_2_alg».proof.Proof.LibPlainMatmul
import proofs.«106553_j9302899163605_2_alg».proof.Proof.LibMatmulNT
import proofs.«106553_j9302899163605_2_alg».proof.Proof.PayRow
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayHead

open Idealize.ShloMosaic Idealize.ShloMosaic.ValueIdx
open Cert.KernelIdeal Cert.KernelIdeal.Gen Cert.LibColumn Cert.KernelIdeal.PayRow
open scoped BigOperators

/-! ## One attention head, stage by stage

  The body computes each of the sixteen heads by the same sequence of operations on a 64-column slice of the query
  block and the head's loaded key and value slabs. The stages are named here once, each with its reading at an index
  on the extended reals; their composition `HEAD` at `(r, d)` is the specification's `Spec.headCore` of the slice's
  row `r` against the slabs' lanes. -/

theorem exp_apply {s : Shape} {φ : FTy} (a : FVec Ideal s φ) (i : s.Idx) : exp a i = Ideal.exp (a i) := rfl

/-- A key or value slab with its leading unit axis dropped. -/
def SLAB (kl : Vec Ideal S1x2048x64 .bf16) : FVec Ideal S2048x64 .bf16 :=
  shapeCast S2048x64 kl shapeCasts_S1x2048x64_S2048x64

theorem SLAB_apply (kl : Vec Ideal S1x2048x64 .bf16) (j : Fin 2048) (e : Fin 64) :
    SLAB kl (ix2 j e) = kl (ix3 (0 : Fin 1) j e) :=
  shapeCast_1ab_ab_apply kl _ j e

/-- The inner products of 512 query rows with 2048 key rows over the 64 lanes. -/
def RAW (qb : FVec Ideal S512x64 .bf16) (k2 : FVec Ideal S2048x64 .bf16) : FVec Ideal S512x2048 .f32 :=
  matmul dot_S512x64_S2048x64_S512x2048_1_1_0_0_n_n none qb k2 (constant S512x2048 .f32 0x00000000#32)

theorem RAW_apply (qb : FVec Ideal S512x64 .bf16) (k2 : FVec Ideal S2048x64 .bf16) (r : Fin 512) (j : Fin 2048) :
    RAW qb k2 (ix2 r j) = ∑ e : Fin 64, qb (ix2 r e) * k2 (ix2 j e) :=
  Cert.LibMatmulNT.matmul_nt_zero_ix2 dot_S512x64_S2048x64_S512x2048_1_1_0_0_n_n none rfl rfl
    (fun _ _ => rfl) (fun _ _ => rfl) (fun _ _ => rfl) (fun _ _ => rfl) qb k2 r j

/-- The scores: the inner products times the scale. -/
def SCALED (s : FVec Ideal S512x2048 .f32) (c : Ideal .f32) : FVec Ideal S512x2048 .f32 :=
  mulf s (broadcast S512x2048 c)

theorem SCALED_apply (s : FVec Ideal S512x2048 .f32) (c : Ideal .f32) (i : S512x2048.Idx) :
    SCALED s c i = s i * c := rfl

/-- Each row's maximum, from minus infinity. -/
def RMAX (s : FVec Ideal S512x2048 .f32) : FVec Ideal S512 .f32 :=
  multiReduction .maximumf [1] S512 s 0xFF800000#32 reduces_S512x2048_S512 (.inl rfl) rfl

theorem RMAX_apply (s : FVec Ideal S512x2048 .f32) (r : Fin 512) :
    RMAX s (ix1 r) = Spec.rowMax (fun k => s (ix2 r k)) :=
  rowMax_apply s 0xFF800000#32 reduces_S512x2048_S512 (.inl rfl) rfl r

/-- The row maxima as a column. -/
def COL (m : FVec Ideal S512 .f32) : FVec Ideal S512x1 .f32 := shapeCast S512x1 m shapeCasts_S512_S512x1

theorem COL_apply (m : FVec Ideal S512 .f32) (r : Fin 512) (u : Fin 1) : COL m (ix2 r u) = m (ix1 r) :=
  shapeCast_a_a1_apply m _ r u

/-- The softmax weights of each row, from the scores and the column of row maxima. -/
def PROBS (s : FVec Ideal S512x2048 .f32) (m : FVec Ideal S512x1 .f32) : FVec Ideal S512x2048 .bf16 :=
  have v39 : FVec Ideal S512x2048 .f32 := broadcastTo S512x2048 m broadcasts_S512x1_S512x2048
  have v40 : FVec Ideal S512x2048 .f32 := subf s v39
  have v41 : FVec Ideal S512x2048 .f32 := exp v40
  have v42 : FVec Ideal S512 .f32 := multiReduction .add [1] S512 v41 0x00000000#32 reduces_S512x2048_S512 (.inl rfl) rfl
  have v43 : FVec Ideal S512x1 .f32 := shapeCast S512x1 v42 shapeCasts_S512_S512x1
  have v44 : FVec Ideal S512x2048 .f32 := broadcastTo S512x2048 v43 broadcasts_S512x1_S512x2048
  have v45 : FVec Ideal S512x2048 .f32 := divf v41 v44
  truncf .bf16 v45 bitsLt_bf16_f32

theorem PROBS_apply (s : FVec Ideal S512x2048 .f32) (m : FVec Ideal S512x1 .f32) (r : Fin 512) (j : Fin 2048) :
    PROBS s m (ix2 r j)
      = Ideal.div (Ideal.exp (s (ix2 r j) - m (ix2 r (0 : Fin 1))))
          (∑ k : Fin 2048, Ideal.exp (s (ix2 r k) - m (ix2 r (0 : Fin 1)))) := by
  unfold PROBS
  simp only [truncf_apply, divf_apply, exp_apply, subf_apply, broadcastTo_a1_ab_apply, shapeCast_a_a1_apply]
  refine congrArg (Ideal.div _) ((rowSum_apply _ _ reduces_S512x2048_S512 _ _ r).trans ?_)
  simp only [exp_apply, subf_apply, broadcastTo_a1_ab_apply]

/-- The weights applied to the values. -/
def AV (p : FVec Ideal S512x2048 .bf16) (v2 : FVec Ideal S2048x64 .bf16) : FVec Ideal S512x64 .f32 :=
  shapeCast S512x64 (matmul dot_S512x2048_S2048x64_S512x64_1_0_0_1_n_n none p v2 (constant S512x64 .f32 0x00000000#32))
    shapeCasts_S512x64_S512x64

theorem AV_apply (p : FVec Ideal S512x2048 .bf16) (v2 : FVec Ideal S2048x64 .bf16) (r : Fin 512) (d : Fin 64) :
    AV p v2 (ix2 r d) = ∑ j : Fin 2048, p (ix2 r j) * v2 (ix2 j d) :=
  (shapeCast_apply _ shapeCasts_S512x64_S512x64 (ix2 r d) (ix2 r d) rfl).trans
    (Cert.LibPlainMatmul.matmul_zero_ix2 dot_S512x2048_S2048x64_S512x64_1_0_0_1_n_n none rfl rfl
      (fun _ _ => rfl) (fun _ _ => rfl) (fun _ _ => rfl) (fun _ _ => rfl) p v2 r d)

/-- One head: from the head's 64 query columns and its key and value slabs to its 64 output columns. -/
def HEAD (qs : FVec Ideal S512x64 .f32) (kl vl : Vec Ideal S1x2048x64 .bf16) : FVec Ideal S512x64 .f32 :=
  AV (PROBS (SCALED (RAW (truncf .bf16 qs bitsLt_bf16_f32) (SLAB kl)) (Scalar.ofBits .f32 0x3E000000#32))
        (COL (RMAX (SCALED (RAW (truncf .bf16 qs bitsLt_bf16_f32) (SLAB kl)) (Scalar.ofBits .f32 0x3E000000#32)))))
    (SLAB vl)

theorem HEAD_apply (qs : FVec Ideal S512x64 .f32) (kl vl : Vec Ideal S1x2048x64 .bf16) (r : Fin 512) (d : Fin 64) :
    HEAD qs kl vl (ix2 r d)
      = Spec.headCore (fun e => qs (ix2 r e)) (fun j e => kl (ix3 (0 : Fin 1) j e)) (fun j e => vl (ix3 (0 : Fin 1) j e)) d := by
  unfold HEAD
  simp only [AV_apply, PROBS_apply, COL_apply, RMAX_apply, SCALED_apply, RAW_apply, SLAB_apply, truncf_apply]
  rfl

end Cert.KernelIdeal.PayHead
end
-- ==== Proof.PayLN.lean ====
/-
  The layer-normalised query block of the fused kernel, read at an index on the extended reals.
-/
import proofs.«106553_j9302899163605_2_alg».proof.Proof.Gen.KernelIdeal.Skeleton
import proofs.«106553_j9302899163605_2_alg».proof.Proof.Spec
import proofs.«106553_j9302899163605_2_alg».proof.Proof.LibColumn
import proofs.«106553_j9302899163605_2_alg».proof.Proof.LibPlainMatmul
import proofs.«106553_j9302899163605_2_alg».proof.Proof.LibMatmulNT
import proofs.«106553_j9302899163605_2_alg».proof.Proof.PayRow
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayLN

open Idealize.ShloMosaic Idealize.ShloMosaic.ValueIdx
open Cert.KernelIdeal Cert.KernelIdeal.Gen Cert.LibColumn Cert.KernelIdeal.PayRow
open scoped BigOperators

theorem rsqrt_apply {s : Shape} {φ : FTy} (a : FVec Ideal s φ) (i : s.Idx) : rsqrt a i = Ideal.rsqrt (a i) := rfl

/-- The sums along the rows of a `[512, 1024]` block. -/
def RSUM (X : FVec Ideal S512x1024 .f32) : FVec Ideal S512 .f32 :=
  multiReduction .add [1] S512 X 0x00000000#32 reduces_S512x1024_S512 (.inl rfl) rfl

theorem RSUM_apply (X : FVec Ideal S512x1024 .f32) (r : Fin 512) : RSUM X (ix1 r) = ∑ k : Fin 1024, X (ix2 r k) :=
  rowSum_apply X _ reduces_S512x1024_S512 _ _ r

/-- The layer normalisation of the rows of a block, with gain `g` and bias `b`, operation by operation as the body
    computes it: the row means, the centred block, the row variances, the reciprocal root, the gain and the bias spread
    over the rows. -/
def LN (x : Vec Ideal S1x512x1024 .f32) (g b : Vec Ideal S1024 .f32) : FVec Ideal S512x1024 .f32 :=
  have v1 : FVec Ideal S512x1024 .f32 := shapeCast S512x1024 x shapeCasts_S1x512x1024_S512x1024
  have v2 : FVec Ideal S512 .f32 := RSUM v1
  have v3 : FVec Ideal S512x1 .f32 := shapeCast S512x1 v2 shapeCasts_S512_S512x1
  have v4 : FVec Ideal S512x1 .f32 := broadcast S512x1 (Scalar.ofBits .f32 0x44800000#32)
  have v5 : FVec Ideal S512x1 .f32 := divf v3 v4
  have v6 : FVec Ideal S512x1024 .f32 := broadcastTo S512x1024 v5 broadcasts_S512x1_S512x1024
  have v7 : FVec Ideal S512x1024 .f32 := subf v1 v6
  have v8 : FVec Ideal S512x1024 .f32 := mulf v7 v7
  have v9 : FVec Ideal S512 .f32 := RSUM v8
  have v10 : FVec Ideal S512x1 .f32 := shapeCast S512x1 v9 shapeCasts_S512_S512x1
  have v12 : FVec Ideal S512x1 .f32 := divf v10 v4
  have v15 : FVec Ideal S512x1 .f32 := broadcast S512x1 (Scalar.ofBits .f32 0x358637BD#32)
  have v16 : FVec Ideal S512x1 .f32 := addf v12 v15
  have v17 : FVec Ideal S512x1 .f32 := rsqrt v16
  have v18 : FVec Ideal S512x1024 .f32 := broadcastTo S512x1024 v17 broadcasts_S512x1_S512x1024
  have v19 : FVec Ideal S512x1024 .f32 := mulf v7 v18
  have v21 : FVec Ideal S1x1024 .f32 := shapeCast S1x1024 g shapeCasts_S1024_S1x1024
  have v22 : FVec Ideal S512x1024 .f32 := broadcastTo S512x1024 v21 broadcasts_S1x1024_S512x1024
  have v23 : FVec Ideal S512x1024 .f32 := mulf v19 v22
  have v25 : FVec Ideal S1x1024 .f32 := shapeCast S1x1024 b shapeCasts_S1024_S1x1024
  have v26 : FVec Ideal S512x1024 .f32 := broadcastTo S512x1024 v25 broadcasts_S1x1024_S512x1024
  addf v23 v26

/-- The body's query block is that normalisation of the loaded block. -/
theorem k1_pay2_eq (v0 : Vec Ideal S1x512x1024 .f32) (v20 v24 : Vec Ideal S1024 .f32) :
    k1_pay2 v0 v20 v24 = LN v0 v20 v24 := rfl

theorem LN_apply (x : Vec Ideal S1x512x1024 .f32) (g b : Vec Ideal S1024 .f32) (r : Fin 512) (c : Fin 1024) :
    LN x g b (ix2 r c) = Spec.ln (fun e => x (ix3 (0 : Fin 1) r e)) g b c := by
  unfold LN
  simp only [addf_apply, mulf_apply, subf_apply, divf_apply, broadcast_apply, rsqrt_apply, broadcastTo_a1_ab_apply,
    broadcastTo_1b_ab_apply, shapeCast_a_1a_apply, shapeCast_1ab_ab_apply, shapeCast_a_a1_apply, RSUM_apply]
  rfl

/-- Row `r`, channel `c` of the query block is the specification's layer-normalised row of the loaded block. -/
theorem k1_pay2_apply (v0 : Vec Ideal S1x512x1024 .f32) (v20 v24 : Vec Ideal S1024 .f32) (r : Fin 512) (c : Fin 1024) :
    (k1_pay2 v0 v20 v24 : FVec Ideal S512x1024 .f32) (ix2 r c) = Spec.ln (fun e => v0 (ix3 (0 : Fin 1) r e)) v20 v24 c :=
  (congrFun (k1_pay2_eq v0 v20 v24) (ix2 r c)).trans (LN_apply v0 v20 v24 r c)

/-- The same under the name the other modules cite. -/
theorem q_apply (v0 : Vec Ideal S1x512x1024 .f32) (v20 v24 : Vec Ideal S1024 .f32) (r : Fin 512) (c : Fin 1024) :
    k1_pay2 (F := Ideal) v0 v20 v24 (ix2 r c) = Spec.ln (fun e => v0 (ix3 (0 : Fin 1) r e)) v20 v24 c :=
  k1_pay2_apply v0 v20 v24 r c

end Cert.KernelIdeal.PayLN
end
-- ==== Proof.PayOut.lean ====
/-
  The output projection of the fused kernel, read at an index on the extended reals: the block the body stores, as the
  specification's projection of the rows of merged heads it has accumulated.

  The body rounds the accumulated `[512, 1024]` block to the narrower format (the identity on the extended reals),
  multiplies it by the projection's weight contracting both operands' second axis, into a zero accumulator, adds the
  bias as a row spread over the rows, and adds a leading unit axis. Read at row `r`, channel `e`: the product is the
  textbook sum over the row's entries against the weight's row `e`, and the spread bias row is the bias at `e`.
-/
import proofs.«106553_j9302899163605_2_alg».proof.Proof.Gen.KernelIdeal.Skeleton
import proofs.«106553_j9302899163605_2_alg».proof.Proof.Spec
import proofs.«106553_j9302899163605_2_alg».proof.Proof.KVMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayOut

open Idealize.ShloMosaic Idealize.ShloMosaic.ValueIdx
open Cert.KernelIdeal Cert.KernelIdeal.Gen
open scoped BigOperators

/-- The projected block before the leading unit axis is added: row `r`, channel `e`, is the inner product of the
    accumulated block's row `r` with the weight's row `e`, plus the bias at `e`. -/
theorem pay37_apply (w : Vec Ideal S1024x1024 .bf16) (acc : Vec Ideal S512x1024 .f32) (bo : Vec Ideal S1024 .f32) (r : Fin 512) (e : Fin 1024) :
    k1_pay37 (F := Ideal) w acc bo (ix2 r e) = (∑ d : Fin 1024, acc (ix2 r d) * w (ix2 e d)) + bo (ix1 e) := by
  unfold k1_pay37
  rw [addf_apply]
  refine congrArg₂ (· + ·) ?_ ?_
  · refine (KVM.matmul_nt_zero_ix2 dot_S512x1024_S1024x1024_S512x1024_1_1_0_0_n_n none rfl rfl
      (fun _ _ => rfl) (fun _ _ => rfl) (fun _ _ => rfl) (fun _ _ => rfl) _ _ r e).trans ?_
    refine Finset.sum_congr rfl fun k _ => ?_
    rw [truncf_apply]
    refine congrArg _ ?_
    exact shapeCast_apply _ _ _ _ rfl
  · exact (broadcastTo_1b_ab_apply _ _ r e).trans (shapeCast_a_1a_apply _ _ (0 : Fin 1) e)

/-- The block a grid point stores: row `r`, channel `e`, is the specification's output projection of the accumulated
    block's row `r`. -/
theorem outproj_apply (w : Vec Ideal S1024x1024 .bf16) (acc : Vec Ideal S512x1024 .f32) (bo : Vec Ideal S1024 .f32) (r : Fin 512) (e : Fin 1024) :
    k1_pay1 (F := Ideal) (k1_pay37 w acc bo) (ix3 (0 : Fin 1) r e) = Spec.outProj (fun d => acc (ix2 r d)) w bo e := by
  unfold k1_pay1
  refine (shapeCast_ab_1ab_apply _ _ (0 : Fin 1) r e).trans ?_
  exact pay37_apply w acc bo r e

end Cert.KernelIdeal.PayOut

end
-- ==== Proof.Pay.lean ====
/-
  The fused attention kernel's arithmetic, read at an index on the extended reals: each value its body stores, as
  the specification's function of the blocks the body loads.
-/
import proofs.«106553_j9302899163605_2_alg».proof.Proof.Gen.KernelIdeal.Skeleton
import proofs.«106553_j9302899163605_2_alg».proof.Proof.Spec
import proofs.«106553_j9302899163605_2_alg».proof.Proof.PayHead
import proofs.«106553_j9302899163605_2_alg».proof.Proof.PayLN
import proofs.«106553_j9302899163605_2_alg».proof.Proof.PayOut
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx
open Cert.KernelIdeal Cert.KernelIdeal.Gen
open scoped BigOperators

/-! ## The fused attention kernel -/

/-- Row `r` of the query block, layer-normalised. -/
abbrev qrow (v0 : Vec Ideal S1x512x1024 .f32) (v20 v24 : Vec Ideal S1024 .f32) (r : Fin 512) : Fin 1024 → EReal :=
  Spec.ln (fun e => v0 (ix3 (0 : Fin 1) r e)) v20 v24

/-- A loaded 64-channel slab of the key or value block, by context token and lane. -/
abbrev lanes (kl : Vec Ideal S1x2048x64 .bf16) : Fin 2048 → Fin 64 → EReal := fun j e => kl (ix3 (0 : Fin 1) j e)

/-- A head's store from its bridge to the stage-by-stage head: if the stored value is the head's stages applied to the
    64 columns of the query block from column `off` on, and lane `e` of head `H` is channel `off + e`, then at `(r, d)`
    it is the specification's head of the layer-normalised row's lanes against the slabs' lanes. -/
theorem head_of_bridge (H : Fin 16) (off : ℕ) (hs : S512x1024.Slices ![0, off] S512x64)
    (hoff : ∀ e : Fin 64, (Spec.hd H e).val = off + e.val)
    (v0 : Vec Ideal S1x512x1024 .f32) (v20 v24 : Vec Ideal S1024 .f32) (kl vl : Vec Ideal S1x2048x64 .bf16)
    (r : Fin 512) (d : Fin 64) (X : FVec Ideal S512x64 .f32)
    (hX : X = PayHead.HEAD (extractStridedSlice S512x64 ![0, off] (k1_pay2 v0 v20 v24) hs) kl vl) :
    X (ix2 r d) = Spec.headCore (fun e => qrow v0 v20 v24 r (Spec.hd H e)) (lanes kl) (lanes vl) d := by
  subst hX
  refine (PayHead.HEAD_apply _ kl vl r d).trans ?_
  refine congrArg (fun q => Spec.headCore q (lanes kl) (lanes vl) d) (funext fun e => ?_)
  exact (slice2_axis1_apply off _ hs r e (Spec.hd H e) (hoff e)).trans (PayLN.q_apply v0 v20 v24 r _)

/-- Head 0's store. -/
theorem head0_apply (v0 : Vec Ideal S1x512x1024 .f32) (v20 v24 : Vec Ideal S1024 .f32) (kl vl : Vec Ideal S1x2048x64 .bf16)
    (r : Fin 512) (d : Fin 64) :
    (k1_pay6 (k1_pay3 vl) (k1_pay4 v0 v20 v24 kl) (k1_pay5 v0 v20 v24 kl) : FVec Ideal S512x64 .f32) (ix2 r d)
      = Spec.headCore (fun e => qrow v0 v20 v24 r (Spec.hd 0 e)) (lanes kl) (lanes vl) d :=
  head_of_bridge 0 0 slices_S512x1024_o0_0_S512x64 (fun _ => rfl) v0 v20 v24 kl vl r d _ rfl

/-- Head 1's store. -/
theorem head1_apply (v0 : Vec Ideal S1x512x1024 .f32) (v20 v24 : Vec Ideal S1024 .f32) (kl vl : Vec Ideal S1x2048x64 .bf16)
    (r : Fin 512) (d : Fin 64) :
    (k1_pay7 (k1_pay2 v0 v20 v24) kl vl : FVec Ideal S512x64 .f32) (ix2 r d)
      = Spec.headCore (fun e => qrow v0 v20 v24 r (Spec.hd 1 e)) (lanes kl) (lanes vl) d :=
  head_of_bridge 1 64 slices_S512x1024_o0_64_S512x64 (fun _ => rfl) v0 v20 v24 kl vl r d _ rfl

/-- Head 2's store. -/
theorem head2_apply (v0 : Vec Ideal S1x512x1024 .f32) (v20 v24 : Vec Ideal S1024 .f32) (kl vl : Vec Ideal S1x2048x64 .bf16)
    (r : Fin 512) (d : Fin 64) :
    (k1_pay9 (k1_pay8 (k1_pay2 v0 v20 v24)) kl vl : FVec Ideal S512x64 .f32) (ix2 r d)
      = Spec.headCore (fun e => qrow v0 v20 v24 r (Spec.hd 2 e)) (lanes kl) (lanes vl) d :=
  head_of_bridge 2 128 slices_S512x1024_o0_128_S512x64 (fun _ => rfl) v0 v20 v24 kl vl r d _ rfl

/-- Head 3's store. -/
theorem head3_apply (v0 : Vec Ideal S1x512x1024 .f32) (v20 v24 : Vec Ideal S1024 .f32) (kl vl : Vec Ideal S1x2048x64 .bf16)
    (r : Fin 512) (d : Fin 64) :
    (k1_pay12 (k1_pay10 vl) (k1_pay11 (k1_pay2 v0 v20 v24) kl) : FVec Ideal S512x64 .f32) (ix2 r d)
      = Spec.headCore (fun e => qrow v0 v20 v24 r (Spec.hd 3 e)) (lanes kl) (lanes vl) d :=
  head_of_bridge 3 192 slices_S512x1024_o0_192_S512x64 (fun _ => rfl) v0 v20 v24 kl vl r d _ rfl

/-- Head 4's store. -/
theorem head4_apply (v0 : Vec Ideal S1x512x1024 .f32) (v20 v24 : Vec Ideal S1024 .f32) (kl vl : Vec Ideal S1x2048x64 .bf16)
    (r : Fin 512) (d : Fin 64) :
    (k1_pay13 (k1_pay2 v0 v20 v24) kl vl : FVec Ideal S512x64 .f32) (ix2 r d)
      = Spec.headCore (fun e => qrow v0 v20 v24 r (Spec.hd 4 e)) (lanes kl) (lanes vl) d :=
  head_of_bridge 4 256 slices_S512x1024_o0_256_S512x64 (fun _ => rfl) v0 v20 v24 kl vl r d _ rfl

/-- Head 5's store. -/
theorem head5_apply (v0 : Vec Ideal S1x512x1024 .f32) (v20 v24 : Vec Ideal S1024 .f32) (kl vl : Vec Ideal S1x2048x64 .bf16)
    (r : Fin 512) (d : Fin 64) :
    (k1_pay16 (k1_pay14 vl) (k1_pay15 (k1_pay2 v0 v20 v24) kl) (Scalar.ofBits .f32 0x3E000000#32) : FVec Ideal S512x64 .f32) (ix2 r d)
      = Spec.headCore (fun e => qrow v0 v20 v24 r (Spec.hd 5 e)) (lanes kl) (lanes vl) d :=
  head_of_bridge 5 320 slices_S512x1024_o0_320_S512x64 (fun _ => rfl) v0 v20 v24 kl vl r d _ rfl

/-- Head 6's store. -/
theorem head6_apply (v0 : Vec Ideal S1x512x1024 .f32) (v20 v24 : Vec Ideal S1024 .f32) (kl vl : Vec Ideal S1x2048x64 .bf16)
    (r : Fin 512) (d : Fin 64) :
    (k1_pay17 (k1_pay2 v0 v20 v24) kl vl : FVec Ideal S512x64 .f32) (ix2 r d)
      = Spec.headCore (fun e => qrow v0 v20 v24 r (Spec.hd 6 e)) (lanes kl) (lanes vl) d :=
  head_of_bridge 6 384 slices_S512x1024_o0_384_S512x64 (fun _ => rfl) v0 v20 v24 kl vl r d _ rfl

/-- Head 7's store. -/
theorem head7_apply (v0 : Vec Ideal S1x512x1024 .f32) (v20 v24 : Vec Ideal S1024 .f32) (kl vl : Vec Ideal S1x2048x64 .bf16)
    (r : Fin 512) (d : Fin 64) :
    (k1_pay19 (k1_pay18 (k1_pay2 v0 v20 v24)) kl vl : FVec Ideal S512x64 .f32) (ix2 r d)
      = Spec.headCore (fun e => qrow v0 v20 v24 r (Spec.hd 7 e)) (lanes kl) (lanes vl) d :=
  head_of_bridge 7 448 slices_S512x1024_o0_448_S512x64 (fun _ => rfl) v0 v20 v24 kl vl r d _ rfl

/-- Head 8's store. -/
theorem head8_apply (v0 : Vec Ideal S1x512x1024 .f32) (v20 v24 : Vec Ideal S1024 .f32) (kl vl : Vec Ideal S1x2048x64 .bf16)
    (r : Fin 512) (d : Fin 64) :
    (k1_pay22 (k1_pay20 vl) (k1_pay21 (k1_pay2 v0 v20 v24) kl) : FVec Ideal S512x64 .f32) (ix2 r d)
      = Spec.headCore (fun e => qrow v0 v20 v24 r (Spec.hd 8 e)) (lanes kl) (lanes vl) d :=
  head_of_bridge 8 512 slices_S512x1024_o0_512_S512x64 (fun _ => rfl) v0 v20 v24 kl vl r d _ rfl

/-- Head 9's store. -/
theorem head9_apply (v0 : Vec Ideal S1x512x1024 .f32) (v20 v24 : Vec Ideal S1024 .f32) (kl vl : Vec Ideal S1x2048x64 .bf16)
    (r : Fin 512) (d : Fin 64) :
    (k1_pay23 (k1_pay2 v0 v20 v24) kl vl : FVec Ideal S512x64 .f32) (ix2 r d)
      = Spec.headCore (fun e => qrow v0 v20 v24 r (Spec.hd 9 e)) (lanes kl) (lanes vl) d :=
  head_of_bridge 9 576 slices_S512x1024_o0_576_S512x64 (fun _ => rfl) v0 v20 v24 kl vl r d _ rfl

/-- Head 10's store. -/
theorem head10_apply (v0 : Vec Ideal S1x512x1024 .f32) (v20 v24 : Vec Ideal S1024 .f32) (kl vl : Vec Ideal S1x2048x64 .bf16)
    (r : Fin 512) (d : Fin 64) :
    (k1_pay26 (k1_pay24 (k1_pay2 v0 v20 v24)) (k1_pay25 kl) vl : FVec Ideal S512x64 .f32) (ix2 r d)
      = Spec.headCore (fun e => qrow v0 v20 v24 r (Spec.hd 10 e)) (lanes kl) (lanes vl) d :=
  head_of_bridge 10 640 slices_S512x1024_o0_640_S512x64 (fun _ => rfl) v0 v20 v24 kl vl r d _ rfl

/-- Head 11's store. -/
theorem head11_apply (v0 : Vec Ideal S1x512x1024 .f32) (v20 v24 : Vec Ideal S1024 .f32) (kl vl : Vec Ideal S1x2048x64 .bf16)
    (r : Fin 512) (d : Fin 64) :
    (k1_pay28 (k1_pay27 (k1_pay2 v0 v20 v24) kl vl) : FVec Ideal S512x64 .f32) (ix2 r d)
      = Spec.headCore (fun e => qrow v0 v20 v24 r (Spec.hd 11 e)) (lanes kl) (lanes vl) d :=
  head_of_bridge 11 704 slices_S512x1024_o0_704_S512x64 (fun _ => rfl) v0 v20 v24 kl vl r d _ rfl

/-- Head 12's store. -/
theorem head12_apply (v0 : Vec Ideal S1x512x1024 .f32) (v20 v24 : Vec Ideal S1024 .f32) (kl vl : Vec Ideal S1x2048x64 .bf16)
    (r : Fin 512) (d : Fin 64) :
    (k1_pay29 (k1_pay2 v0 v20 v24) kl vl : FVec Ideal S512x64 .f32) (ix2 r d)
      = Spec.headCore (fun e => qrow v0 v20 v24 r (Spec.hd 12 e)) (lanes kl) (lanes vl) d :=
  head_of_bridge 12 768 slices_S512x1024_o0_768_S512x64 (fun _ => rfl) v0 v20 v24 kl vl r d _ rfl

/-- Head 13's store. -/
theorem head13_apply (v0 : Vec Ideal S1x512x1024 .f32) (v20 v24 : Vec Ideal S1024 .f32) (kl vl : Vec Ideal S1x2048x64 .bf16)
    (r : Fin 512) (d : Fin 64) :
    (k1_pay33 (k1_pay30 vl) (k1_pay31 (k1_pay2 v0 v20 v24) kl) (k1_pay32 (k1_pay2 v0 v20 v24) kl) : FVec Ideal S512x64 .f32) (ix2 r d)
      = Spec.headCore (fun e => qrow v0 v20 v24 r (Spec.hd 13 e)) (lanes kl) (lanes vl) d :=
  head_of_bridge 13 832 slices_S512x1024_o0_832_S512x64 (fun _ => rfl) v0 v20 v24 kl vl r d _ rfl

/-- Head 14's store. -/
theorem head14_apply (v0 : Vec Ideal S1x512x1024 .f32) (v20 v24 : Vec Ideal S1024 .f32) (kl vl : Vec Ideal S1x2048x64 .bf16)
    (r : Fin 512) (d : Fin 64) :
    (k1_pay34 (k1_pay2 v0 v20 v24) kl vl : FVec Ideal S512x64 .f32) (ix2 r d)
      = Spec.headCore (fun e => qrow v0 v20 v24 r (Spec.hd 14 e)) (lanes kl) (lanes vl) d :=
  head_of_bridge 14 896 slices_S512x1024_o0_896_S512x64 (fun _ => rfl) v0 v20 v24 kl vl r d _ rfl

/-- Head 15's store. -/
theorem head15_apply (v0 : Vec Ideal S1x512x1024 .f32) (v20 v24 : Vec Ideal S1024 .f32) (kl vl : Vec Ideal S1x2048x64 .bf16)
    (r : Fin 512) (d : Fin 64) :
    (k1_pay36 (k1_pay35 (k1_pay2 v0 v20 v24)) kl vl : FVec Ideal S512x64 .f32) (ix2 r d)
      = Spec.headCore (fun e => qrow v0 v20 v24 r (Spec.hd 15 e)) (lanes kl) (lanes vl) d :=
  head_of_bridge 15 960 slices_S512x1024_o0_960_S512x64 (fun _ => rfl) v0 v20 v24 kl vl r d _ rfl

/-- The output block: row `r`, channel `e`, is the output projection of the accumulator's row `r`. -/
theorem outproj_apply (w : Vec Ideal S1024x1024 .bf16) (acc : Vec Ideal S512x1024 .f32) (bo : Vec Ideal S1024 .f32)
    (r : Fin 512) (e : Fin 1024) :
    k1_pay1 (F := Ideal) (k1_pay37 w acc bo) (ix3 (0 : Fin 1) r e) = Spec.outProj (fun d => acc (ix2 r d)) w bo e :=
  PayOut.outproj_apply w acc bo r e

end Cert.KernelIdeal.Pay

end
-- ==== Proof.AttnPoint.lean ====
/-
  One grid point of the fused attention kernel, read at an index on the extended reals.

  The body layer-normalises its 512 query rows, and for each of the 16 heads stores that head's 64 output channels
  into columns `64·h … 64·h + 63` of a 512 × 1024 accumulator; the accumulator read back whole is therefore, at
  `(r, c)`, lane `c % 64` of head `c / 64` for query row `r` — the merged heads — whatever the order of the sixteen
  stores, because each store's value is the restriction of that one function to the store's columns. The output block is
  the output projection of the accumulator's rows.
-/
import proofs.«106553_j9302899163605_2_alg».proof.Proof.Gen.KernelIdeal.Frame
import proofs.«106553_j9302899163605_2_alg».proof.Proof.Pay
import Idealize.ShloMosaic.Lib.Pipeline.Value
import Idealize.ShloMosaic.Lib.Tactic

set_option maxRecDepth 16384

noncomputable section

namespace Cert.KernelIdeal.AttnPoint

open Idealize.ShloMosaic Idealize.ShloMosaic.TcCoe Idealize.ShloMosaic.Tactic Idealize.ShloMosaic.ValueIdx
open Idealize.SL Idealize.SL.Sem
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- One batch entry's key (or value) rows, by context token and channel, from the block the kernel is given. -/
abbrev rowsOf (x : Vec Ideal S1x2048x1024 .bf16) : Fin 2048 → Fin 1024 → EReal := fun j ch => x (ix3 (0 : Fin 1) j ch)

/-- The merged heads at channel `64·h + d` are head `h`'s lane `d`. -/
theorem merged_hd (q : Fin 1024 → EReal) (kb vb : Fin 2048 → Fin 1024 → EReal) (h : Fin 16) (d : Fin 64) :
    Spec.merged q kb vb (Spec.hd h d) = Spec.headOut q kb vb h d := by
  have key : ∀ (a : Fin 16) (b : Fin 64), a.val = h.val → b.val = d.val →
      Spec.headOut q kb vb a b = Spec.headOut q kb vb h d := fun a b ha hb => by rw [Fin.ext ha, Fin.ext hb]
  unfold Spec.merged
  refine key _ _ ?_ ?_
  · show (64 * h.val + d.val) / 64 = h.val
    have := d.isLt; omega
  · show (64 * h.val + d.val) % 64 = d.val
    have := d.isLt; omega

/-- What the accumulator holds once all sixteen heads are stored: at `(r, c)` the merged heads of query row `r` at
    channel `c`. -/
def accOf (x0 : Vec Ideal S1x512x1024 .f32) (x1 x2 : Vec Ideal S1024 .f32) (x3 x4 : Vec Ideal S1x2048x1024 .bf16) :
    S512x1024.Idx → EReal :=
  fun y => Spec.merged (Pay.qrow x0 x1 x2 ⟨(y 0).val, (y 0).isLt⟩) (rowsOf x3) (rowsOf x4) ⟨(y 1).val, (y 1).isLt⟩

theorem accOf_ix2 (x0 : Vec Ideal S1x512x1024 .f32) (x1 x2 : Vec Ideal S1024 .f32) (x3 x4 : Vec Ideal S1x2048x1024 .bf16)
    (r : Fin 512) (c : Fin 1024) :
    accOf x0 x1 x2 x3 x4 (ix2 r c) = Spec.merged (Pay.qrow x0 x1 x2 r) (rowsOf x3) (rowsOf x4) c := rfl

/-- A 64-channel slab of the key (or value) block loaded at channel offset `64·h`: token `j`, lane `e` is the block's
    channel `64·h + e` of token `j`. -/
theorem lanes_ld (x : Vec Ideal S1x2048x1024 .bf16) (h : Fin 16)
    (inbK : ∀ a, (![0, 0, 64 * h.val] : Fin 3 → ℕ) a + S1x2048x64.size a ≤ S1x2048x1024.size a) :
    Pay.lanes (View.ld x (Rect.unit (s := S1x2048x1024) ![0, 0, 64 * h.val] S1x2048x64.size inbK))
      = fun j e => rowsOf x j (Spec.hd h e) := by
  funext j e
  refine congrArg x (funext fun a => Fin.ext ?_)
  match a with
  | ⟨0, _⟩ => show 0 + 1 * 0 = 0; omega
  | ⟨1, _⟩ => show 0 + 1 * j.val = j.val; omega
  | ⟨2, _⟩ => show 64 * h.val + 1 * e.val = 64 * h.val + e.val; omega

/-- A head's store is the accumulator's function restricted to the head's columns. -/
theorem piece_ok (x0 : Vec Ideal S1x512x1024 .f32) (x1 x2 : Vec Ideal S1024 .f32) (x3 x4 : Vec Ideal S1x2048x1024 .bf16)
    (h : Fin 16) (off : ℕ) (hoff : off = 64 * h.val)
    (inbS : ∀ a, (![0, off] : Fin 2 → ℕ) a + S512x64.size a ≤ S512x1024.size a)
    (inbK : ∀ a, (![0, 0, off] : Fin 3 → ℕ) a + S1x2048x64.size a ≤ S1x2048x1024.size a)
    (Pv : S512x64.Idx → EReal)
    (hP : ∀ (r : Fin 512) (d : Fin 64), Pv (ix2 r d)
      = Spec.headCore (fun e => Pay.qrow x0 x1 x2 r (Spec.hd h e))
          (Pay.lanes (View.ld x3 (Rect.unit (s := S1x2048x1024) ![0, 0, off] S1x2048x64.size inbK)))
          (Pay.lanes (View.ld x4 (Rect.unit (s := S1x2048x1024) ![0, 0, off] S1x2048x64.size inbK))) d)
    (x : S512x64.Idx) :
    Pv x = accOf x0 x1 x2 x3 x4 ((Rect.unit (s := S512x1024) ![0, off] S512x64.size inbS).emb x) := by
  subst hoff
  obtain ⟨r, d, rfl⟩ : ∃ (r : Fin 512) (d : Fin 64), x = ix2 r d := ⟨x 0, x 1, eq_ix2 x⟩
  have hemb : (Rect.unit (s := S512x1024) ![0, 64 * h.val] S512x64.size inbS).emb (ix2 r d) = ix2 r (Spec.hd h d) :=
    funext fun a => Fin.ext (by
      match a with
      | ⟨0, _⟩ => show 0 + 1 * r.val = r.val; omega
      | ⟨1, _⟩ => show 64 * h.val + 1 * d.val = 64 * h.val + d.val; omega)
  rw [hP r d, hemb, accOf_ix2, merged_hd, lanes_ld x3 h inbK, lanes_ld x4 h inbK]
  rfl

set_option maxHeartbeats 1000000 in
/-- The output block a grid point leaves, at row `r` and channel `e`: the output projection of the merged heads of
    the block's query row `r` against the key and value blocks. -/
theorem out_apply (c : Dev nD) (i : grid1.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S512x1024 .f32) (harg10 : arg10.IsWhole)
    (x0 : Vec Ideal S1x512x1024 .f32) (x1 : Vec Ideal S1024 .f32) (x2 : Vec Ideal S1024 .f32) (x3 : Vec Ideal S1x2048x1024 .bf16) (x4 : Vec Ideal S1x2048x1024 .bf16) (x5 : Vec Ideal S1024x1024 .bf16) (x6 : Vec Ideal S1024 .f32)
    (r : Fin 512) (e : Fin 1024) :
    out1_A_7 (F := Ideal) c i arg2 harg2 arg3 harg3 arg4 harg4 arg5 harg5 arg6 harg6 arg7 harg7 arg8 harg8 arg9 harg9 arg10 harg10 x0 x1 x2 x3 x4 x5 x6 (ix3 (0 : Fin 1) r e)
      = Spec.outProj (Spec.merged (Pay.qrow x0 x1 x2 r) (rowsOf x3) (rowsOf x4)) x5 x6 e := by
  unfold out1_A_7
  rw [View.read_writes_eq_canon _ _ _ (cover1_A_7 c i arg2 harg2 arg3 harg3 arg4 harg4 arg5 harg5 arg6 harg6 arg7 harg7 arg8 harg8 arg9 harg9 arg10 harg10 x0 x1 x2 x3 x4 x5 x6)]
  unfold kernelRun1_A
  dsimp only
  rw [View.canon_unit_zero hz3]
  sl_unfold_words
  rw [View.readCov_eq_canon']
  simp only [View.readAt_eq_ld, harg2.read_unread, harg3.read_unread, harg4.read_unread, harg5.read_unread,
    harg6.read_unread, harg7.read_unread, harg8.read_unread, View.ld_unit_zero (S := S1x512x1024) hz3,
    View.ld_unit_zero (S := S1024) hz1, View.ld_unit_zero (S := S1024x1024) hz2]
  refine (Pay.outproj_apply _ _ _ r e).trans ?_
  refine congrArg (fun a => Spec.outProj a x5 x6 e) (funext fun d => ?_)
  have hB : (Rect.unit (s := S512x1024) ![0, 0] S512x1024.size inb_S512x1024_S512x1024_0_0).toLoadRect.idx (ix2 r d) = ix2 r d :=
    funext fun a => Fin.ext (by
      match a with
      | ⟨0, _⟩ => show 0 + 1 * r.val = r.val; omega
      | ⟨1, _⟩ => show 0 + 1 * d.val = d.val; omega)
  show View.canon _ ((Rect.unit (s := S512x1024) ![0, 0] S512x1024.size inb_S512x1024_S512x1024_0_0).toLoadRect.idx (ix2 r d)) = _
  rw [hB]
  refine (View.canon_apply_of_pieces (accOf x0 x1 x2 x3 x4) _ ?_ (ix2 r d) ?_).trans (accOf_ix2 x0 x1 x2 x3 x4 r d)
  · intro p hp
    simp only [List.mem_cons, List.mem_singleton, List.not_mem_nil, or_false] at hp
    rcases hp with rfl | rfl | rfl | rfl | rfl | rfl | rfl | rfl | rfl | rfl | rfl | rfl | rfl | rfl | rfl | rfl
    · exact piece_ok x0 x1 x2 x3 x4 (15 : Fin 16) 960 rfl inb_S512x1024_S512x64_0_960 inb_S1x2048x1024_S1x2048x64_0_0_960 _ (fun r d => Pay.head15_apply x0 x1 x2 _ _ r d)
    · exact piece_ok x0 x1 x2 x3 x4 (14 : Fin 16) 896 rfl inb_S512x1024_S512x64_0_896 inb_S1x2048x1024_S1x2048x64_0_0_896 _ (fun r d => Pay.head14_apply x0 x1 x2 _ _ r d)
    · exact piece_ok x0 x1 x2 x3 x4 (13 : Fin 16) 832 rfl inb_S512x1024_S512x64_0_832 inb_S1x2048x1024_S1x2048x64_0_0_832 _ (fun r d => Pay.head13_apply x0 x1 x2 _ _ r d)
    · exact piece_ok x0 x1 x2 x3 x4 (12 : Fin 16) 768 rfl inb_S512x1024_S512x64_0_768 inb_S1x2048x1024_S1x2048x64_0_0_768 _ (fun r d => Pay.head12_apply x0 x1 x2 _ _ r d)
    · exact piece_ok x0 x1 x2 x3 x4 (11 : Fin 16) 704 rfl inb_S512x1024_S512x64_0_704 inb_S1x2048x1024_S1x2048x64_0_0_704 _ (fun r d => Pay.head11_apply x0 x1 x2 _ _ r d)
    · exact piece_ok x0 x1 x2 x3 x4 (10 : Fin 16) 640 rfl inb_S512x1024_S512x64_0_640 inb_S1x2048x1024_S1x2048x64_0_0_640 _ (fun r d => Pay.head10_apply x0 x1 x2 _ _ r d)
    · exact piece_ok x0 x1 x2 x3 x4 (9 : Fin 16) 576 rfl inb_S512x1024_S512x64_0_576 inb_S1x2048x1024_S1x2048x64_0_0_576 _ (fun r d => Pay.head9_apply x0 x1 x2 _ _ r d)
    · exact piece_ok x0 x1 x2 x3 x4 (8 : Fin 16) 512 rfl inb_S512x1024_S512x64_0_512 inb_S1x2048x1024_S1x2048x64_0_0_512 _ (fun r d => Pay.head8_apply x0 x1 x2 _ _ r d)
    · exact piece_ok x0 x1 x2 x3 x4 (7 : Fin 16) 448 rfl inb_S512x1024_S512x64_0_448 inb_S1x2048x1024_S1x2048x64_0_0_448 _ (fun r d => Pay.head7_apply x0 x1 x2 _ _ r d)
    · exact piece_ok x0 x1 x2 x3 x4 (6 : Fin 16) 384 rfl inb_S512x1024_S512x64_0_384 inb_S1x2048x1024_S1x2048x64_0_0_384 _ (fun r d => Pay.head6_apply x0 x1 x2 _ _ r d)
    · exact piece_ok x0 x1 x2 x3 x4 (5 : Fin 16) 320 rfl inb_S512x1024_S512x64_0_320 inb_S1x2048x1024_S1x2048x64_0_0_320 _ (fun r d => Pay.head5_apply x0 x1 x2 _ _ r d)
    · exact piece_ok x0 x1 x2 x3 x4 (4 : Fin 16) 256 rfl inb_S512x1024_S512x64_0_256 inb_S1x2048x1024_S1x2048x64_0_0_256 _ (fun r d => Pay.head4_apply x0 x1 x2 _ _ r d)
    · exact piece_ok x0 x1 x2 x3 x4 (3 : Fin 16) 192 rfl inb_S512x1024_S512x64_0_192 inb_S1x2048x1024_S1x2048x64_0_0_192 _ (fun r d => Pay.head3_apply x0 x1 x2 _ _ r d)
    · exact piece_ok x0 x1 x2 x3 x4 (2 : Fin 16) 128 rfl inb_S512x1024_S512x64_0_128 inb_S1x2048x1024_S1x2048x64_0_0_128 _ (fun r d => Pay.head2_apply x0 x1 x2 _ _ r d)
    · exact piece_ok x0 x1 x2 x3 x4 (1 : Fin 16) 64 rfl inb_S512x1024_S512x64_0_64 inb_S1x2048x1024_S1x2048x64_0_0_64 _ (fun r d => Pay.head1_apply x0 x1 x2 _ _ r d)
    · exact piece_ok x0 x1 x2 x3 x4 (0 : Fin 16) 0 rfl inb_S512x1024_S512x64_0_0 inb_S1x2048x1024_S1x2048x64_0_0_0 _ (fun r d => Pay.head0_apply x0 x1 x2 _ _ r d)
  · exact View.cover_of_tiledL (s := S512x1024) _ ![512, 64] (by sl_kernel_rfl) (ix2 r d)

end Cert.KernelIdeal.AttnPoint

end
-- ==== Proof.Region1.lean ====
/-
  The second kernel's output array after its run: the attention block of the query input against the key and value
  arrays it is given.

  Grid point `t` (of 8) works on batch entry `t / 4` and query rows `512·(t % 4) … 512·(t % 4) + 511`: it is given that
  row block of `x`, the whole key and value arrays of the batch entry, the whole gain, bias, weight and output bias, and
  writes back the same row block of the output. What it writes back is, row by row, the specification's attention block
  (Proof/AttnPoint.lean, at the blocks it is given), and the eight row blocks cover the output array.
-/
import proofs.«106553_j9302899163605_2_alg».proof.Proof.Gen.KernelIdeal.Frame
import proofs.«106553_j9302899163605_2_alg».proof.Proof.Spec
import proofs.«106553_j9302899163605_2_alg».proof.Proof.AttnPoint
import Idealize.ShloMosaic.Lib.Pipeline.Value

set_option maxRecDepth 16384

noncomputable section

namespace Cert.KernelIdeal.Attn

open Idealize.ShloMosaic Idealize.ShloMosaic.TcCoe Idealize.SL.Sem Idealize.ShloMosaic.ValueIdx
open Idealize.ShloMosaic.Pipeline (Dat)
open Cert.KernelIdeal Cert.KernelIdeal.Gen

/-! ## The windows' index maps over the grid -/

theorem hi0_0 : ∀ t : Fin cfg1.N, win1_0.index t 0 = t.val / 4 :=
  (by decide +kernel : ∀ t : Fin grid1.N, win1_0.index t 0 = t.val / 4)
theorem hi0_1 : ∀ t : Fin cfg1.N, win1_0.index t 1 = t.val % 4 :=
  (by decide +kernel : ∀ t : Fin grid1.N, win1_0.index t 1 = t.val % 4)
theorem hi0_2 : ∀ t : Fin cfg1.N, win1_0.index t 2 = 0 :=
  (by decide +kernel : ∀ t : Fin grid1.N, win1_0.index t 2 = 0)
theorem hi1_0 : ∀ t : Fin cfg1.N, win1_1.index t 0 = 0 :=
  (by decide +kernel : ∀ t : Fin grid1.N, win1_1.index t 0 = 0)
theorem hi2_0 : ∀ t : Fin cfg1.N, win1_2.index t 0 = 0 :=
  (by decide +kernel : ∀ t : Fin grid1.N, win1_2.index t 0 = 0)
theorem hi3_0 : ∀ t : Fin cfg1.N, win1_3.index t 0 = t.val / 4 :=
  (by decide +kernel : ∀ t : Fin grid1.N, win1_3.index t 0 = t.val / 4)
theorem hi3_1 : ∀ t : Fin cfg1.N, win1_3.index t 1 = 0 :=
  (by decide +kernel : ∀ t : Fin grid1.N, win1_3.index t 1 = 0)
theorem hi3_2 : ∀ t : Fin cfg1.N, win1_3.index t 2 = 0 :=
  (by decide +kernel : ∀ t : Fin grid1.N, win1_3.index t 2 = 0)
theorem hi4_0 : ∀ t : Fin cfg1.N, win1_4.index t 0 = t.val / 4 :=
  (by decide +kernel : ∀ t : Fin grid1.N, win1_4.index t 0 = t.val / 4)
theorem hi4_1 : ∀ t : Fin cfg1.N, win1_4.index t 1 = 0 :=
  (by decide +kernel : ∀ t : Fin grid1.N, win1_4.index t 1 = 0)
theorem hi4_2 : ∀ t : Fin cfg1.N, win1_4.index t 2 = 0 :=
  (by decide +kernel : ∀ t : Fin grid1.N, win1_4.index t 2 = 0)
theorem hi5_0 : ∀ t : Fin cfg1.N, win1_5.index t 0 = 0 :=
  (by decide +kernel : ∀ t : Fin grid1.N, win1_5.index t 0 = 0)
theorem hi5_1 : ∀ t : Fin cfg1.N, win1_5.index t 1 = 0 :=
  (by decide +kernel : ∀ t : Fin grid1.N, win1_5.index t 1 = 0)
theorem hi6_0 : ∀ t : Fin cfg1.N, win1_6.index t 0 = 0 :=
  (by decide +kernel : ∀ t : Fin grid1.N, win1_6.index t 0 = 0)
theorem hi7_0 : ∀ t : Fin cfg1.N, win1_7.index t 0 = t.val / 4 :=
  (by decide +kernel : ∀ t : Fin grid1.N, win1_7.index t 0 = t.val / 4)
theorem hi7_1 : ∀ t : Fin cfg1.N, win1_7.index t 1 = t.val % 4 :=
  (by decide +kernel : ∀ t : Fin grid1.N, win1_7.index t 1 = t.val % 4)
theorem hi7_2 : ∀ t : Fin cfg1.N, win1_7.index t 2 = 0 :=
  (by decide +kernel : ∀ t : Fin grid1.N, win1_7.index t 2 = 0)

variable (V : (c : Dev nD) → (b : Ref sig .tc) → Buf (Elt Ideal) ((c : Thread nD τ).loc b))

/-! ## Each window's block, read where it sits in its array -/

/-- The query block at a point: batch entry `t / 4`, rows `512·(t % 4) …`, every channel. -/
theorem iblk_0_apply (c : Dev nD) (t : Fin cfg1.N) (x : S1x512x1024.Idx) (k : S2x2048x1024.Idx) (hk0 : (k 0).val = (t.val / 4) * 1 + (x 0).val) (hk1 : (k 1).val = (t.val % 4) * 512 + (x 1).val) (hk2 : (k 2).val = 0 * 1024 + (x 2).val) :
    (iblk1 V c 0 t : Vec Ideal S1x512x1024 .f32) x = (V c main_arg0 : S2x2048x1024.Idx → EReal) k := by
  unfold iblk1
  rw [View.read_apply]
  show V c main_arg0 _ = V c main_arg0 _
  refine congrArg (V c main_arg0) (funext fun a => Fin.ext ?_)
  match a with
    | ⟨0, _⟩ => show win1_0.index t 0 * 1 + 1 * (x 0).val = (k 0).val; rw [hk0, hi0_0 t]; omega
    | ⟨1, _⟩ => show win1_0.index t 1 * 512 + 1 * (x 1).val = (k 1).val; rw [hk1, hi0_1 t]; omega
    | ⟨2, _⟩ => show win1_0.index t 2 * 1024 + 1 * (x 2).val = (k 2).val; rw [hk2, hi0_2 t]; omega

/-- The query gain is staged whole. -/
theorem iblk_1_apply (c : Dev nD) (t : Fin cfg1.N) (x : S1024.Idx) (k : S1024.Idx) (hk0 : (k 0).val = 0 * 1024 + (x 0).val) :
    (iblk1 V c 1 t : Vec Ideal S1024 .f32) x = (V c main_arg2 : S1024.Idx → EReal) k := by
  unfold iblk1
  rw [View.read_apply]
  show V c main_arg2 _ = V c main_arg2 _
  refine congrArg (V c main_arg2) (funext fun a => Fin.ext ?_)
  match a with
    | ⟨0, _⟩ => show win1_1.index t 0 * 1024 + 1 * (x 0).val = (k 0).val; rw [hk0, hi1_0 t]; omega

/-- The query bias is staged whole. -/
theorem iblk_2_apply (c : Dev nD) (t : Fin cfg1.N) (x : S1024.Idx) (k : S1024.Idx) (hk0 : (k 0).val = 0 * 1024 + (x 0).val) :
    (iblk1 V c 2 t : Vec Ideal S1024 .f32) x = (V c main_arg3 : S1024.Idx → EReal) k := by
  unfold iblk1
  rw [View.read_apply]
  show V c main_arg3 _ = V c main_arg3 _
  refine congrArg (V c main_arg3) (funext fun a => Fin.ext ?_)
  match a with
    | ⟨0, _⟩ => show win1_2.index t 0 * 1024 + 1 * (x 0).val = (k 0).val; rw [hk0, hi2_0 t]; omega

/-- The key block at a point: all of batch entry `t / 4`. -/
theorem iblk_3_apply (c : Dev nD) (t : Fin cfg1.N) (x : S1x2048x1024.Idx) (k : S2x2048x1024.Idx) (hk0 : (k 0).val = (t.val / 4) * 1 + (x 0).val) (hk1 : (k 1).val = 0 * 2048 + (x 1).val) (hk2 : (k 2).val = 0 * 1024 + (x 2).val) :
    (iblk1 V c 3 t : Vec Ideal S1x2048x1024 .bf16) x = (V c main_v1_0 : S2x2048x1024.Idx → EReal) k := by
  unfold iblk1
  rw [View.read_apply]
  show V c main_v1_0 _ = V c main_v1_0 _
  refine congrArg (V c main_v1_0) (funext fun a => Fin.ext ?_)
  match a with
    | ⟨0, _⟩ => show win1_3.index t 0 * 1 + 1 * (x 0).val = (k 0).val; rw [hk0, hi3_0 t]; omega
    | ⟨1, _⟩ => show win1_3.index t 1 * 2048 + 1 * (x 1).val = (k 1).val; rw [hk1, hi3_1 t]; omega
    | ⟨2, _⟩ => show win1_3.index t 2 * 1024 + 1 * (x 2).val = (k 2).val; rw [hk2, hi3_2 t]; omega

/-- The value block at a point: all of batch entry `t / 4`. -/
theorem iblk_4_apply (c : Dev nD) (t : Fin cfg1.N) (x : S1x2048x1024.Idx) (k : S2x2048x1024.Idx) (hk0 : (k 0).val = (t.val / 4) * 1 + (x 0).val) (hk1 : (k 1).val = 0 * 2048 + (x 1).val) (hk2 : (k 2).val = 0 * 1024 + (x 2).val) :
    (iblk1 V c 4 t : Vec Ideal S1x2048x1024 .bf16) x = (V c main_v1_1 : S2x2048x1024.Idx → EReal) k := by
  unfold iblk1
  rw [View.read_apply]
  show V c main_v1_1 _ = V c main_v1_1 _
  refine congrArg (V c main_v1_1) (funext fun a => Fin.ext ?_)
  match a with
    | ⟨0, _⟩ => show win1_4.index t 0 * 1 + 1 * (x 0).val = (k 0).val; rw [hk0, hi4_0 t]; omega
    | ⟨1, _⟩ => show win1_4.index t 1 * 2048 + 1 * (x 1).val = (k 1).val; rw [hk1, hi4_1 t]; omega
    | ⟨2, _⟩ => show win1_4.index t 2 * 1024 + 1 * (x 2).val = (k 2).val; rw [hk2, hi4_2 t]; omega

/-- The output weight is staged whole. -/
theorem iblk_5_apply (c : Dev nD) (t : Fin cfg1.N) (x : S1024x1024.Idx) (k : S1024x1024.Idx) (hk0 : (k 0).val = 0 * 1024 + (x 0).val) (hk1 : (k 1).val = 0 * 1024 + (x 1).val) :
    (iblk1 V c 5 t : Vec Ideal S1024x1024 .bf16) x = (V c main_v2 : S1024x1024.Idx → EReal) k := by
  unfold iblk1
  rw [View.read_apply]
  show V c main_v2 _ = V c main_v2 _
  refine congrArg (V c main_v2) (funext fun a => Fin.ext ?_)
  match a with
    | ⟨0, _⟩ => show win1_5.index t 0 * 1024 + 1 * (x 0).val = (k 0).val; rw [hk0, hi5_0 t]; omega
    | ⟨1, _⟩ => show win1_5.index t 1 * 1024 + 1 * (x 1).val = (k 1).val; rw [hk1, hi5_1 t]; omega

/-- The output bias is staged whole. -/
theorem iblk_6_apply (c : Dev nD) (t : Fin cfg1.N) (x : S1024.Idx) (k : S1024.Idx) (hk0 : (k 0).val = 0 * 1024 + (x 0).val) :
    (iblk1 V c 6 t : Vec Ideal S1024 .f32) x = (V c main_arg8 : S1024.Idx → EReal) k := by
  unfold iblk1
  rw [View.read_apply]
  show V c main_arg8 _ = V c main_arg8 _
  refine congrArg (V c main_arg8) (funext fun a => Fin.ext ?_)
  match a with
    | ⟨0, _⟩ => show win1_6.index t 0 * 1024 + 1 * (x 0).val = (k 0).val; rw [hk0, hi6_0 t]; omega

/-! ## What a grid point writes back -/

/-- The whole-vector operands are their arrays. -/
theorem iblk_1_eq (c : Dev nD) (t : Fin cfg1.N) : (iblk1 V c 1 t : Vec Ideal S1024 .f32) = V c main_arg2 :=
  funext fun x => iblk_1_apply V c t x x (by omega)
theorem iblk_2_eq (c : Dev nD) (t : Fin cfg1.N) : (iblk1 V c 2 t : Vec Ideal S1024 .f32) = V c main_arg3 :=
  funext fun x => iblk_2_apply V c t x x (by omega)
theorem iblk_6_eq (c : Dev nD) (t : Fin cfg1.N) : (iblk1 V c 6 t : Vec Ideal S1024 .f32) = V c main_arg8 :=
  funext fun x => iblk_6_apply V c t x x (by omega)
theorem iblk_5_eq (c : Dev nD) (t : Fin cfg1.N) : (iblk1 V c 5 t : Vec Ideal S1024x1024 .bf16) = V c main_v2 :=
  funext fun x => iblk_5_apply V c t x x (by omega) (by omega)

/-- The batch entry and the array row of the block's row `r` at point `t`. -/
abbrev bOf (t : Fin cfg1.N) : Fin 2 := ⟨t.val / 4, by have := t.isLt; have hN : cfg1.N = 8 := N_1; omega⟩
abbrev nOf (t : Fin cfg1.N) (r : Fin 512) : Fin 2048 := ⟨512 * (t.val % 4) + r.val, by have := r.isLt; omega⟩

/-- The query block's row `r` is row `(t / 4, 512·(t % 4) + r)` of `x`, so its layer normalisation is that token's query row. -/
theorem qrow_eq (c : Dev nD) (t : Fin cfg1.N) (r : Fin 512) :
    Pay.qrow (iblk1 V c 0 t) (iblk1 V c 1 t) (iblk1 V c 2 t) r
      = Spec.qRow (V c main_arg0) (V c main_arg2) (V c main_arg3) (bOf t) (nOf t r) := by
  rw [iblk_1_eq, iblk_2_eq]
  show Spec.ln _ _ _ = Spec.ln _ _ _
  refine congrArg (fun f => Spec.ln f (V c main_arg2) (V c main_arg3)) (funext fun e => ?_)
  exact iblk_0_apply V c t (ix3 (0 : Fin 1) r e) (ix3 (bOf t) (nOf t r) e)
    (by show t.val / 4 = t.val / 4 * 1 + 0; omega) (by show 512 * (t.val % 4) + r.val = t.val % 4 * 512 + r.val; omega)
    (by show e.val = 0 * 1024 + e.val; omega)

/-- The key block's rows are the batch entry's key rows. -/
theorem krows_eq (c : Dev nD) (t : Fin cfg1.N) :
    AttnPoint.rowsOf (iblk1 V c 3 t) = fun j ch => (V c main_v1_0 : Spec.SA.Idx → EReal) (ix3 (bOf t) j ch) :=
  funext fun j => funext fun ch => iblk_3_apply V c t (ix3 (0 : Fin 1) j ch) (ix3 (bOf t) j ch)
    (by show t.val / 4 = t.val / 4 * 1 + 0; omega) (by show j.val = 0 * 2048 + j.val; omega) (by show ch.val = 0 * 1024 + ch.val; omega)

/-- The value block's rows are the batch entry's value rows. -/
theorem vrows_eq (c : Dev nD) (t : Fin cfg1.N) :
    AttnPoint.rowsOf (iblk1 V c 4 t) = fun j ch => (V c main_v1_1 : Spec.SA.Idx → EReal) (ix3 (bOf t) j ch) :=
  funext fun j => funext fun ch => iblk_4_apply V c t (ix3 (0 : Fin 1) j ch) (ix3 (bOf t) j ch)
    (by show t.val / 4 = t.val / 4 * 1 + 0; omega) (by show j.val = 0 * 2048 + j.val; omega) (by show ch.val = 0 * 1024 + ch.val; omega)

/-- The specification's attention block as the array it is. -/
abbrev G (c : Dev nD) : Spec.SA.Idx → EReal :=
  Spec.attn (V c main_arg0) (V c main_arg2) (V c main_arg3) (V c main_v1_0) (V c main_v1_1) (V c main_v2) (V c main_arg8)

/-- What point `t` leaves in the output's staging buffer, at the block's index `j`, is the attention block at the
    array index the block's index sits at. -/
theorem outs_apply (c : Dev nD) (t : Fin cfg1.N) (j : S1x512x1024.Idx) (k : Spec.SA.Idx)
    (hk0 : (k 0).val = t.val / 4) (hk1 : (k 1).val = 512 * (t.val % 4) + (j 1).val) (hk2 : (k 2).val = (j 2).val) :
    outsAt1 V c t j = G V c k := by
  obtain ⟨u, r, e, rfl⟩ : ∃ (u : Fin 1) (r : Fin 512) (e : Fin 1024), j = ix3 u r e := ⟨j 0, j 1, j 2, eq_ix3 j⟩
  obtain rfl : u = 0 := Subsingleton.elim _ _
  obtain rfl : k = ix3 (bOf t) (nOf t r) e := funext fun a => Fin.ext (by
    match a with
    | ⟨0, _⟩ => exact hk0
    | ⟨1, _⟩ => exact hk1
    | ⟨2, _⟩ => exact hk2)
  unfold outsAt1
  rw [AttnPoint.out_apply, qrow_eq, krows_eq, vrows_eq, iblk_5_eq, iblk_6_eq]
  rfl

theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  funext j
  rw [View.read_apply]
  refine outs_apply V c t j _ ?_ ?_ ?_
  · show win1_7.index t 0 * 1 + 1 * (j 0).val = t.val / 4
    have hj0 : (j 0).val < 1 := (j 0).isLt
    rw [hi7_0 t]; omega
  · show win1_7.index t 1 * 512 + 1 * (j 1).val = 512 * (t.val % 4) + (j 1).val
    rw [hi7_1 t]; omega
  · show win1_7.index t 2 * 1024 + 1 * (j 2).val = (j 2).val
    rw [hi7_2 t]; omega

/-! ## The eight row blocks cover the output array -/

theorem attn_arr (c : Dev nD) :
    (dat1 (F := Ideal) V c).arrAt 7 cfg1.N
      = Spec.attn (V c main_arg0) (V c main_arg2) (V c main_arg3) (V c main_v1_0) (V c main_v1_1) (V c main_v2) (V c main_arg8) :=
  (dat1 V c).arrAt_eq_of_cover 7 (G V c) (fun t _ => flushed_eq V c t) fun i => by
    have hN : cfg1.N = 8 := N_1
    have h0 : (i 0).val < 2 := (i 0).isLt
    have h1 : (i 1).val < 2048 := (i 1).isLt
    have h2 : (i 2).val < 1024 := (i 2).isLt
    have ht : 4 * (i 0).val + (i 1).val / 512 < cfg1.N := by omega
    refine ⟨⟨4 * (i 0).val + (i 1).val / 512, ht⟩, flush1_7 _, ?_⟩
    show i ∈ ((View.whole main_v3).slice (win1_7.rect ⟨4 * (i 0).val + (i 1).val / 512, ht⟩)).set
    rw [View.set_slice_whole, Rect.mem_set_unit]
    intro a
    match a with
    | ⟨0, _⟩ =>
      show win1_7.index _ 0 * 1 ≤ (i 0).val ∧ (i 0).val < win1_7.index _ 0 * 1 + 1
      rw [hi7_0]; dsimp only; omega
    | ⟨1, _⟩ =>
      show win1_7.index _ 1 * 512 ≤ (i 1).val ∧ (i 1).val < win1_7.index _ 1 * 512 + 512
      rw [hi7_1]; dsimp only; omega
    | ⟨2, _⟩ =>
      show win1_7.index _ 2 * 1024 ≤ (i 2).val ∧ (i 2).val < win1_7.index _ 2 * 1024 + 1024
      rw [hi7_2]; dsimp only; omega

end Cert.KernelIdeal.Attn

end
-- ==== Proof.Value.lean ====
/-
  The idealized kernel program's result as a function of its nine arguments: the second kernel's output array is the
  attention block of `x` against the first kernel's two output arrays, which are the keys and the values of the
  context; the two weight matrices reach the kernels through a change of float format, the identity on the extended
  reals, and every other operand is an argument as launched.
-/
import proofs.«106553_j9302899163605_2_alg».proof.Proof.Region0
import proofs.«106553_j9302899163605_2_alg».proof.Proof.Region1
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The second kernel finds `main_arg0` as launched. -/
theorem V3_main_arg0 (c : Dev nD) : V3 m ρ c main_arg0 = m ((c : Thread nD τ).loc main_arg0) :=
  (((W4_arr m ρ c 0).trans (((dat1 (V3 m ρ) c).arrAt_in 0 rfl _).trans (A_eq1 (V3 m ρ) c 0))).symm).trans (W4_main_arg0 m ρ c)
/-- The second kernel finds `main_arg2` as launched. -/
theorem V3_main_arg2 (c : Dev nD) : V3 m ρ c main_arg2 = m ((c : Thread nD τ).loc main_arg2) :=
  (((W4_arr m ρ c 1).trans (((dat1 (V3 m ρ) c).arrAt_in 1 rfl _).trans (A_eq1 (V3 m ρ) c 1))).symm).trans (W4_main_arg2 m ρ c)
/-- The second kernel finds `main_arg3` as launched. -/
theorem V3_main_arg3 (c : Dev nD) : V3 m ρ c main_arg3 = m ((c : Thread nD τ).loc main_arg3) :=
  (((W4_arr m ρ c 2).trans (((dat1 (V3 m ρ) c).arrAt_in 2 rfl _).trans (A_eq1 (V3 m ρ) c 2))).symm).trans (W4_main_arg3 m ρ c)
/-- The second kernel finds `main_arg8` as launched. -/
theorem V3_main_arg8 (c : Dev nD) : V3 m ρ c main_arg8 = m ((c : Thread nD τ).loc main_arg8) :=
  (((W4_arr m ρ c 6).trans (((dat1 (V3 m ρ) c).arrAt_in 6 rfl _).trans (A_eq1 (V3 m ρ) c 6))).symm).trans (W4_main_arg8 m ρ c)

/-- The first kernel finds the context as launched. -/
theorem V1_main_arg1 (c : Dev nD) : V1 m ρ c main_arg1 = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- The first kernel finds the key gain as launched. -/
theorem V1_main_arg4 (c : Dev nD) : V1 m ρ c main_arg4 = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- The first kernel finds the key bias as launched. -/
theorem V1_main_arg5 (c : Dev nD) : V1 m ρ c main_arg5 = m ((c : Thread nD τ).loc main_arg5) :=
  StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first kernel's weight operand is `W_kv` after a change of float format: the same extended reals. -/
theorem V1_main_v0 (c : Dev nD) : (V1 m ρ c main_v0 : Spec.SWkv.Idx → EReal) = m ((c : Thread nD τ).loc main_arg6) := by
  show StableHlo.after hostOps0 (W0 m ρ c) (Proc.devRef .tc main_v0) = _
  after_results
  rfl

/-- The second kernel's weight operand is `W_out` after a change of float format: the same extended reals; the
    first kernel and the host line before it leave `W_out` as launched. -/
theorem V3_main_v2 (c : Dev nD) : (V3 m ρ c main_v2 : Spec.SWo.Idx → EReal) = m ((c : Thread nD τ).loc main_arg7) := by
  have h7 : W2 m ρ c (Proc.devRef .tc main_arg7) = m ((c : Thread nD τ).loc main_arg7) :=
    (W2_of_ne m ρ c main_arg7 (by decide)).trans (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
  show StableHlo.after hostOps1 (W2 m ρ c) (Proc.devRef .tc main_v2) = _
  after_results
  rw [h7]
  rfl

/-- The second kernel finds the keys where the first kernel's write-backs left them. -/
theorem V3_main_v1_0 (c : Dev nD) : V3 m ρ c main_v1_0 = (dat0 (V1 m ρ) c).arrAt 4 cfg0.N :=
  (StableHlo.after_of_forall_not_mem (b := Proc.devRef .tc main_v1_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 4)
/-- … and the values. -/
theorem V3_main_v1_1 (c : Dev nD) : V3 m ρ c main_v1_1 = (dat0 (V1 m ρ) c).arrAt 5 cfg0.N :=
  (StableHlo.after_of_forall_not_mem (b := Proc.devRef .tc main_v1_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 5)

/-- The result buffer after the run is the specification's function of the nine arguments as launched. -/
theorem result_eq (c : Dev nD) :
    W4 m ρ c (Proc.devRef .tc main_v3)
      = Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_arr m ρ c 7).trans ((Attn.attn_arr (V3 m ρ) c).trans ?_)
  rw [V3_main_arg0, V3_main_arg2, V3_main_arg3, V3_main_arg8, V3_main_v2, V3_main_v1_0, V3_main_v1_1,
    KV.keys_arr, KV.vals_arr, V1_main_arg1, V1_main_arg4, V1_main_arg5, V1_main_v0]
  rfl

end Cert.KernelIdeal.Val

end
-- ==== Proof.RefLN.lean ====
/-
  Layer normalisation of the rows of an activation array, read off the reference's operations one after the other:
  the row sum, the mean, the deviations, the sum of their squares, the variance, the reciprocal square root of the
  offset variance, and the scaled, gained and biased result.
-/
import proofs.«106553_j9302899163605_2_alg».proof.Proof.Gen.ReferenceIdeal.Read
import proofs.«106553_j9302899163605_2_alg».proof.Proof.Spec

noncomputable section

namespace Cert.ReferenceIdeal.RefLN

open Idealize.ShloMosaic Idealize.ShloMosaic.ValueIdx
open Cert.ReferenceIdeal Cert.ReferenceIdeal.Read
open scoped BigOperators

/-- An activation array. -/
abbrev ArrA : Type := (⟨S2x2048x1024, .f32⟩ : BufTy).Contents (Elt Ideal)
/-- A per-channel vector. -/
abbrev ArrC : Type := (⟨S1024, .f32⟩ : BufTy).Contents (Elt Ideal)

/-- The sum of a row. -/
theorem v0_ix (x0 : ArrA) (b : Fin 2) (n : Fin 2048) :
    val_main_v0 (F := Ideal) x0 (ix2 b n) = ∑ k : Fin 1024, x0 (ix3 b n k) := by
  rw [val_main_v0_apply, val_main_cst_apply, Ideal.ofBits_def, Ideal.ofBits_zero_f32, zero_add]
  refine Finset.sum_congr rfl fun k _ => congrArg x0 ?_
  funext a; match a with | ⟨0, _⟩ => rfl | ⟨1, _⟩ => rfl | ⟨2, _⟩ => rfl

/-- The mean of a row. -/
theorem v3_ix (x0 : ArrA) (b : Fin 2) (n : Fin 2048) (u : Fin 1) :
    val_main_v3 (F := Ideal) x0 (ix3 b n u) = Spec.mean (fun d => x0 (ix3 b n d)) := by
  rw [val_main_v3_apply, val_main_v1_apply, val_main_v2_apply, val_main_cst_0_apply, Ideal.hostDivf_def, Ideal.ofBits_def]
  have e : idx_main_v1 (ix3 b n u) = ix2 b n := by
    funext a; match a with | ⟨0, _⟩ => rfl | ⟨1, _⟩ => rfl
  rw [e, v0_ix]
  rfl

/-- A row's entry minus the row's mean (the operand of the square). -/
theorem v5_ix (x0 : ArrA) (b : Fin 2) (n : Fin 2048) (d : Fin 1024) :
    val_main_v5 (F := Ideal) x0 (ix3 b n d) = x0 (ix3 b n d) - Spec.mean (fun d => x0 (ix3 b n d)) := by
  rw [val_main_v5_apply, val_main_v4_apply, Ideal.subf_def]
  have e : idx_main_v4 (ix3 b n d) = ix3 b n (0 : Fin 1) := by
    funext a; match a with | ⟨0, _⟩ => rfl | ⟨1, _⟩ => rfl | ⟨2, _⟩ => rfl
  rw [e, v3_ix]

/-- A row's entry minus the row's mean (the operand of the scaling). -/
theorem v12_ix (x0 : ArrA) (b : Fin 2) (n : Fin 2048) (d : Fin 1024) :
    val_main_v12 (F := Ideal) x0 (ix3 b n d) = x0 (ix3 b n d) - Spec.mean (fun d => x0 (ix3 b n d)) := by
  rw [val_main_v12_apply, val_main_v11_apply, Ideal.subf_def]
  have e : idx_main_v11 (ix3 b n d) = ix3 b n (0 : Fin 1) := by
    funext a; match a with | ⟨0, _⟩ => rfl | ⟨1, _⟩ => rfl | ⟨2, _⟩ => rfl
  rw [e, v3_ix]

/-- The sum of the squared deviations of a row. -/
theorem v7_ix (x0 : ArrA) (b : Fin 2) (n : Fin 2048) :
    val_main_v7 (F := Ideal) x0 (ix2 b n)
      = ∑ k : Fin 1024, (x0 (ix3 b n k) - Spec.mean (fun d => x0 (ix3 b n d))) * (x0 (ix3 b n k) - Spec.mean (fun d => x0 (ix3 b n d))) := by
  rw [val_main_v7_apply, val_main_cst_1_apply, Ideal.ofBits_def, Ideal.ofBits_zero_f32, zero_add]
  refine Finset.sum_congr rfl fun k _ => ?_
  have e : idx_main_v7 (ix2 b n) k = ix3 b n k := by
    funext a; match a with | ⟨0, _⟩ => rfl | ⟨1, _⟩ => rfl | ⟨2, _⟩ => rfl
  rw [e, val_main_v6_apply, Ideal.mulf_def, v5_ix]

/-- The variance of a row. -/
theorem v10_ix (x0 : ArrA) (b : Fin 2) (n : Fin 2048) (u : Fin 1) :
    val_main_v10 (F := Ideal) x0 (ix3 b n u) = Spec.var (fun d => x0 (ix3 b n d)) := by
  rw [val_main_v10_apply, val_main_v8_apply, val_main_v9_apply, val_main_cst_2_apply, Ideal.hostDivf_def, Ideal.ofBits_def]
  have e : idx_main_v8 (ix3 b n u) = ix2 b n := by
    funext a; match a with | ⟨0, _⟩ => rfl | ⟨1, _⟩ => rfl
  rw [e, v7_ix]
  rfl

/-- The reciprocal square root of a row's offset variance. -/
theorem v15_ix (x0 : ArrA) (b : Fin 2) (n : Fin 2048) (u : Fin 1) :
    val_main_v15 (F := Ideal) x0 (ix3 b n u) = Ideal.rsqrt (Spec.var (fun d => x0 (ix3 b n d)) + Spec.eps) := by
  rw [val_main_v15_apply, val_main_v14_apply, val_main_v13_apply, val_main_cst_3_apply, Ideal.hostUnary_rsqrt_def,
    Ideal.addf_def, Ideal.ofBits_def, v10_ix]
  rfl

/-- The layer normalisation of the rows of an array, entry by entry. -/
theorem v23_ix (x0 : ArrA) (x2 x3 : ArrC) (b : Fin 2) (n : Fin 2048) (d : Fin 1024) :
    val_main_v23 (F := Ideal) x0 x2 x3 (ix3 b n d) = Spec.ln (fun d => x0 (ix3 b n d)) x2 x3 d := by
  rw [val_main_v23_apply, val_main_v20_apply, val_main_v17_apply, val_main_v16_apply, val_main_v19_apply, val_main_v18_apply,
    val_main_v22_apply, val_main_v21_apply, Ideal.addf_def, Ideal.mulf_def, Ideal.mulf_def, v12_ix]
  have e16 : idx_main_v16 (ix3 b n d) = ix3 b n (0 : Fin 1) := by
    funext a; match a with | ⟨0, _⟩ => rfl | ⟨1, _⟩ => rfl | ⟨2, _⟩ => rfl
  have e19 : idx_main_v18 (idx_main_v19 (ix3 b n d)) = ix1 d := by
    funext a; match a with | ⟨0, _⟩ => rfl
  have e22 : idx_main_v21 (idx_main_v22 (ix3 b n d)) = ix1 d := by
    funext a; match a with | ⟨0, _⟩ => rfl
  rw [e16, e19, e22, v15_ix]
  rfl

/-- The layer normalisation of the rows of an array, as an array. -/
theorem v23_eq (x0 : ArrA) (x2 x3 : ArrC) :
    val_main_v23 (F := Ideal) x0 x2 x3 = Spec.arr3 fun b n d => Spec.ln (fun d => x0 (ix3 b n d)) x2 x3 d := by
  funext i
  obtain ⟨b, n, d, rfl⟩ : ∃ (b : Fin 2) (n : Fin 2048) (d : Fin 1024), i = ix3 b n d := ⟨i 0, i 1, i 2, eq_ix3 i⟩
  rw [Spec.arr3_ix3]
  exact v23_ix x0 x2 x3 b n d

end Cert.ReferenceIdeal.RefLN

end
-- ==== Proof.RefKV.lean ====
/-
  The keys and the values of the reference: the context projected into 2048 channels per token, whose first 1024
  channels, layer-normalised, are the keys and whose last 1024 are the values. The second layer normalisation is the
  same chain of operations as the first, applied to the first half of the projected channels.
-/
import proofs.«106553_j9302899163605_2_alg».proof.Proof.Gen.ReferenceIdeal.Read
import proofs.«106553_j9302899163605_2_alg».proof.Proof.Spec
import proofs.«106553_j9302899163605_2_alg».proof.Proof.RefLN

noncomputable section

namespace Cert.ReferenceIdeal.RefKV

open Idealize.ShloMosaic Idealize.ShloMosaic.ValueIdx
open Cert.ReferenceIdeal Cert.ReferenceIdeal.Read Cert.ReferenceIdeal.RefLN
open scoped BigOperators

/-- A weight of the key/value projection. -/
abbrev ArrWkv : Type := (⟨S2048x1024, .f32⟩ : BufTy).Contents (Elt Ideal)

/-- The projected context, entry by entry. -/
theorem v24_ix (x1 : ArrA) (x6 : ArrWkv) (b : Fin 2) (n : Fin 2048) (e : Fin 2048) :
    val_main_v24 (F := Ideal) x1 x6 (ix3 b n e) = Spec.proj x1 x6 b n e := by
  rw [val_main_v24_apply]
  refine Finset.sum_congr rfl fun k _ => ?_
  have el : lidx_main_v24 (ix3 b n e) k = ix3 b n k := by
    funext a; match a with | ⟨0, _⟩ => rfl | ⟨1, _⟩ => rfl | ⟨2, _⟩ => rfl
  have er : ridx_main_v24 (ix3 b n e) k = ix2 e k := by
    funext a; match a with | ⟨0, _⟩ => rfl | ⟨1, _⟩ => rfl
  rw [el, er]

/-- The first half of the projected channels. -/
theorem v25_ix (x1 : ArrA) (x6 : ArrWkv) (b : Fin 2) (n : Fin 2048) (d : Fin 1024) :
    val_main_v25 (F := Ideal) x1 x6 (ix3 b n d) = Spec.proj x1 x6 b n ⟨d.val, by omega⟩ := by
  rw [val_main_v25_apply]
  have e : idx_main_v25 (ix3 b n d) = ix3 b n (⟨d.val, by omega⟩ : Fin 2048) := by
    funext a; match a with | ⟨0, _⟩ => rfl | ⟨1, _⟩ => rfl | ⟨2, _⟩ => rfl
  rw [e, v24_ix]

/-- The second half of the projected channels: the values. -/
theorem v26_ix (x1 : ArrA) (x6 : ArrWkv) (b : Fin 2) (n : Fin 2048) (d : Fin 1024) :
    val_main_v26 (F := Ideal) x1 x6 (ix3 b n d) = Spec.proj x1 x6 b n ⟨1024 + d.val, by omega⟩ := by
  rw [val_main_v26_apply]
  have e : idx_main_v26 (ix3 b n d) = ix3 b n (⟨1024 + d.val, by omega⟩ : Fin 2048) := by
    funext a; match a with | ⟨0, _⟩ => rfl | ⟨1, _⟩ => rfl | ⟨2, _⟩ => rfl
  rw [e, v24_ix]

/-- The values, as an array. -/
theorem v26_eq (x1 : ArrA) (x6 : ArrWkv) : val_main_v26 (F := Ideal) x1 x6 = Spec.vals x1 x6 := by
  funext i
  obtain ⟨b, n, d, rfl⟩ : ∃ (b : Fin 2) (n : Fin 2048) (d : Fin 1024), i = ix3 b n d := ⟨i 0, i 1, i 2, eq_ix3 i⟩
  unfold Spec.vals
  rw [Spec.arr3_ix3]
  exact v26_ix x1 x6 b n d

/-- The second layer normalisation is the first one's operations, applied to the first half of the projected channels. -/
theorem v50_eq_v23 (x1 : ArrA) (x4 x5 : ArrC) (x6 : ArrWkv) :
    val_main_v50 (F := Ideal) x1 x4 x5 x6 = val_main_v23 (F := Ideal) (val_main_v25 (F := Ideal) x1 x6) x4 x5 := rfl

/-- The keys, as an array. -/
theorem v50_eq (x1 : ArrA) (x4 x5 : ArrC) (x6 : ArrWkv) : val_main_v50 (F := Ideal) x1 x4 x5 x6 = Spec.keys x1 x6 x4 x5 := by
  rw [v50_eq_v23, v23_eq]
  unfold Spec.keys
  refine congrArg Spec.arr3 ?_
  funext b n d
  refine congrArg (fun r => Spec.ln r x4 x5 d) ?_
  funext e
  exact v25_ix x1 x6 b n e

end Cert.ReferenceIdeal.RefKV

end
-- ==== Proof.RefAttn.lean ====
/-
  The attention part of the reference, read off its operations one after the other over the layer-normalised queries,
  the keys and the values as given arrays: the split into heads (channel 64·h + d is lane d of head h), the scaled
  scores, the row maximum (the reduction with maximum from -∞ is the fold of max over the context tokens, and the
  maximum of -∞ with that fold is the fold itself), the exponential weights and their sum, the softmax, the weighted
  values, the heads side by side again, and the output projection with its bias.
-/
import proofs.«106553_j9302899163605_2_alg».proof.Proof.Gen.ReferenceIdeal.Read
import proofs.«106553_j9302899163605_2_alg».proof.Proof.Spec
import proofs.«106553_j9302899163605_2_alg».proof.Proof.RefLN

noncomputable section

namespace Cert.ReferenceIdeal.RefAttn

open Idealize.ShloMosaic Idealize.ShloMosaic.ValueIdx
open Cert.ReferenceIdeal Cert.ReferenceIdeal.Gen Cert.ReferenceIdeal.Read Cert.ReferenceIdeal.RefLN
open scoped BigOperators

/-- A weight of the key/value projection. -/
abbrev ArrWkv : Type := (⟨S2048x1024, .f32⟩ : BufTy).Contents (Elt Ideal)
/-- The weight of the output projection. -/
abbrev ArrWo : Type := (⟨S1024x1024, .f32⟩ : BufTy).Contents (Elt Ideal)

/-- The scores of query token `i` of batch entry `b` in head `h` against every context token, from a query array
    and a key array (batch entry, token, channel). -/
def sc (Q K : ArrA) (b : Fin 2) (h : Fin 16) (i : Fin 2048) : Fin 2048 → EReal :=
  fun j => (∑ e : Fin 64, Q (ix3 b i (Spec.hd h e)) * K (ix3 b j (Spec.hd h e))) * Spec.scale

/-- Reading a [2,2048,1024] array through the reshape to [2,2048,16,64] and the transposition to [2,16,2048,64]:
    lane `d` of head `h` is channel `64·h + d`. -/
theorem heads_idx (b : Fin 2) (h : Fin 16) (i : Fin 2048) (d : Fin 64) :
    idx_main_v51 (idx_main_v52 (ix4 b h i d)) = ix3 b i (Spec.hd h d) := by
  have hb := b.isLt; have hh := h.isLt; have hi := i.isLt; have hd := d.isLt
  funext a; apply Fin.ext
  match a with
  | ⟨0, _⟩ => show (((b.val * 2048 + i.val) * 16 + h.val) * 64 + d.val) / 2097152 = b.val; omega
  | ⟨1, _⟩ => show (((b.val * 2048 + i.val) * 16 + h.val) * 64 + d.val) / 1024 % 2048 = i.val; omega
  | ⟨2, _⟩ => show (((b.val * 2048 + i.val) * 16 + h.val) * 64 + d.val) % 1024 = 64 * h.val + d.val; omega

variable (x0 x1 : ArrA) (x2 x3 x4 x5 : ArrC) (x6 : ArrWkv) (x7 : ArrWo) (x8 : ArrC)

/-- The queries by head. -/
theorem v52_ix (b : Fin 2) (h : Fin 16) (i : Fin 2048) (d : Fin 64) :
    val_main_v52 (F := Ideal) x0 x2 x3 (ix4 b h i d) = val_main_v23 (F := Ideal) x0 x2 x3 (ix3 b i (Spec.hd h d)) := by
  rw [val_main_v52_apply, val_main_v51_apply, heads_idx]

/-- The keys by head. -/
theorem v54_ix (b : Fin 2) (h : Fin 16) (j : Fin 2048) (d : Fin 64) :
    val_main_v54 (F := Ideal) x1 x4 x5 x6 (ix4 b h j d) = val_main_v50 (F := Ideal) x1 x4 x5 x6 (ix3 b j (Spec.hd h d)) := by
  rw [val_main_v54_apply, val_main_v53_apply]
  exact congrArg _ (heads_idx b h j d)

/-- The values by head. -/
theorem v56_ix (b : Fin 2) (h : Fin 16) (j : Fin 2048) (d : Fin 64) :
    val_main_v56 (F := Ideal) x1 x6 (ix4 b h j d) = val_main_v26 (F := Ideal) x1 x6 (ix3 b j (Spec.hd h d)) := by
  rw [val_main_v56_apply, val_main_v55_apply]
  exact congrArg _ (heads_idx b h j d)

/-- The scaled scores. -/
theorem v59_ix (b : Fin 2) (h : Fin 16) (i j : Fin 2048) :
    val_main_v59 (F := Ideal) x0 x1 x2 x3 x4 x5 x6 (ix4 b h i j)
      = sc (val_main_v23 (F := Ideal) x0 x2 x3) (val_main_v50 (F := Ideal) x1 x4 x5 x6) b h i j := by
  rw [val_main_v59_apply, val_main_v58_apply, val_main_cst_9_apply, Ideal.mulf_def, Ideal.ofBits_def, val_main_v57_apply]
  unfold sc Spec.scale
  refine congrArg (· * _) (Finset.sum_congr rfl fun k _ => ?_)
  have el : lidx_main_v57 (ix4 b h i j) k = ix4 b h i k := by
    funext a; match a with | ⟨0, _⟩ => rfl | ⟨1, _⟩ => rfl | ⟨2, _⟩ => rfl | ⟨3, _⟩ => rfl
  have er : ridx_main_v57 (ix4 b h i j) k = ix4 b h j k := by
    funext a; match a with | ⟨0, _⟩ => rfl | ⟨1, _⟩ => rfl | ⟨2, _⟩ => rfl | ⟨3, _⟩ => rfl
  rw [el, er, v52_ix, v54_ix]

/-- The reduced index (b, h, i) with the coordinate `k` of the reduced axis put back is (b, h, i, k). -/
theorem lift_ix4 (hr : S2x16x2048x2048.Reduces [3] S2x16x2048) (b : Fin 2) (h : Fin 16) (i : Fin 2048)
    (k : Fin (S2x16x2048x2048.size 3)) : hr.lift (ix3 b h i) k = ix4 b h i (⟨k.val, k.isLt⟩ : Fin 2048) := by
  funext c; apply Fin.ext
  fin_cases c <;> rfl

/-- The maximum of a row of scores. -/
theorem v62_ix (b : Fin 2) (h : Fin 16) (i : Fin 2048) :
    val_main_v62 (F := Ideal) x0 x1 x2 x3 x4 x5 x6 (ix3 b h i)
      = Spec.rowMax (sc (val_main_v23 (F := Ideal) x0 x2 x3) (val_main_v50 (F := Ideal) x1 x4 x5 x6) b h i) := by
  have hr : S2x16x2048x2048.Reduces [3] S2x16x2048 := by decide
  have h60 : val_main_v60 (F := Ideal) x0 x1 x2 x3 x4 x5 x6 (ix3 b h i)
      = Spec.rowMax (sc (val_main_v23 (F := Ideal) x0 x2 x3) (val_main_v50 (F := Ideal) x1 x4 x5 x6) b h i) := by
    unfold val_main_v60
    rw [Host.reduce_eq_fold_single FloatOps.maximumf _ _ reducesTo_S2x16x2048x2048_S2x16x2048_d3 hr h_S_]
    have hf : (val_main_v59 (F := Ideal) x0 x1 x2 x3 x4 x5 x6 ∘ hr.lift (ix3 b h i))
        = sc (val_main_v23 (F := Ideal) x0 x2 x3) (val_main_v50 (F := Ideal) x1 x4 x5 x6) b h i := by
      funext k
      show val_main_v59 (F := Ideal) x0 x1 x2 x3 x4 x5 x6 (hr.lift (ix3 b h i) k) = _
      rw [lift_ix4, v59_ix]
      rfl
    rw [hf]
    rfl
  rw [val_main_v62_apply, val_main_v61_apply, val_main_cst_11_apply, Ideal.maximumf_def, Ideal.ofBits_def, h60]
  exact max_eq_right ((Finset.le_fold_max _).2 (Or.inl le_rfl))

/-- The exponential weights of a row of scores. -/
theorem v66_ix (b : Fin 2) (h : Fin 16) (i j : Fin 2048) :
    val_main_v66 (F := Ideal) x0 x1 x2 x3 x4 x5 x6 (ix4 b h i j)
      = Spec.wexp (sc (val_main_v23 (F := Ideal) x0 x2 x3) (val_main_v50 (F := Ideal) x1 x4 x5 x6) b h i) j := by
  rw [val_main_v66_apply, val_main_v65_apply, val_main_v64_apply, val_main_v63_apply, Ideal.hostUnary_exp_def, Ideal.subf_def,
    v59_ix]
  have e : idx_main_v63 (idx_main_v64 (ix4 b h i j)) = ix3 b h i := by
    funext a; match a with | ⟨0, _⟩ => rfl | ⟨1, _⟩ => rfl | ⟨2, _⟩ => rfl
  rw [e, v62_ix]
  rfl

/-- The sum of a row's exponential weights. -/
theorem v67_ix (b : Fin 2) (h : Fin 16) (i : Fin 2048) :
    val_main_v67 (F := Ideal) x0 x1 x2 x3 x4 x5 x6 (ix3 b h i)
      = ∑ k : Fin 2048, Spec.wexp (sc (val_main_v23 (F := Ideal) x0 x2 x3) (val_main_v50 (F := Ideal) x1 x4 x5 x6) b h i) k := by
  rw [val_main_v67_apply, val_main_cst_12_apply, Ideal.ofBits_def, Ideal.ofBits_zero_f32, zero_add]
  refine Finset.sum_congr rfl fun k _ => ?_
  have e : idx_main_v67 (ix3 b h i) k = ix4 b h i k := by
    funext a; match a with | ⟨0, _⟩ => rfl | ⟨1, _⟩ => rfl | ⟨2, _⟩ => rfl | ⟨3, _⟩ => rfl
  rw [e, v66_ix]

/-- The softmax of a row of scores. -/
theorem v70_ix (b : Fin 2) (h : Fin 16) (i j : Fin 2048) :
    val_main_v70 (F := Ideal) x0 x1 x2 x3 x4 x5 x6 (ix4 b h i j)
      = Spec.softmax (sc (val_main_v23 (F := Ideal) x0 x2 x3) (val_main_v50 (F := Ideal) x1 x4 x5 x6) b h i) j := by
  rw [val_main_v70_apply, val_main_v69_apply, val_main_v68_apply, Ideal.hostDivf_def, v66_ix]
  have e : idx_main_v68 (idx_main_v69 (ix4 b h i j)) = ix3 b h i := by
    funext a; match a with | ⟨0, _⟩ => rfl | ⟨1, _⟩ => rfl | ⟨2, _⟩ => rfl
  rw [e, v67_ix]
  rfl

/-- One head's output at a lane. -/
theorem v71_ix (b : Fin 2) (h : Fin 16) (i : Fin 2048) (d : Fin 64) :
    val_main_v71 (F := Ideal) x0 x1 x2 x3 x4 x5 x6 (ix4 b h i d)
      = Spec.headOut (fun c => val_main_v23 (F := Ideal) x0 x2 x3 (ix3 b i c))
          (fun j c => val_main_v50 (F := Ideal) x1 x4 x5 x6 (ix3 b j c))
          (fun j c => val_main_v26 (F := Ideal) x1 x6 (ix3 b j c)) h d := by
  rw [val_main_v71_apply]
  unfold Spec.headOut Spec.headCore
  refine Finset.sum_congr rfl fun k _ => ?_
  have el : lidx_main_v71 (ix4 b h i d) k = ix4 b h i k := by
    funext a; match a with | ⟨0, _⟩ => rfl | ⟨1, _⟩ => rfl | ⟨2, _⟩ => rfl | ⟨3, _⟩ => rfl
  have er : ridx_main_v71 (ix4 b h i d) k = ix4 b h k d := by
    funext a; match a with | ⟨0, _⟩ => rfl | ⟨1, _⟩ => rfl | ⟨2, _⟩ => rfl | ⟨3, _⟩ => rfl
  rw [el, er, v70_ix, v56_ix]
  rfl

/-- Reading a [2,16,2048,64] array through the transposition to [2,2048,16,64] and the reshape to [2,2048,1024]:
    channel `c` is lane `c % 64` of head `c / 64`. -/
theorem merge_idx (b : Fin 2) (i : Fin 2048) (c : Fin 1024) :
    idx_main_v72 (idx_main_v73 (ix3 b i c))
      = ix4 b (⟨c.val / 64, by omega⟩ : Fin 16) i (⟨c.val % 64, Nat.mod_lt _ (by decide)⟩ : Fin 64) := by
  have hb := b.isLt; have hi := i.isLt; have hc := c.isLt
  funext a; apply Fin.ext
  match a with
  | ⟨0, _⟩ => show ((b.val * 2048 + i.val) * 1024 + c.val) / 2097152 = b.val; omega
  | ⟨1, _⟩ => show ((b.val * 2048 + i.val) * 1024 + c.val) / 64 % 16 = c.val / 64; omega
  | ⟨2, _⟩ => show ((b.val * 2048 + i.val) * 1024 + c.val) / 1024 % 2048 = i.val; omega
  | ⟨3, _⟩ => show ((b.val * 2048 + i.val) * 1024 + c.val) % 64 = c.val % 64; omega

/-- The heads' outputs side by side. -/
theorem v73_ix (b : Fin 2) (i : Fin 2048) (c : Fin 1024) :
    val_main_v73 (F := Ideal) x0 x1 x2 x3 x4 x5 x6 (ix3 b i c)
      = Spec.merged (fun c => val_main_v23 (F := Ideal) x0 x2 x3 (ix3 b i c))
          (fun j c => val_main_v50 (F := Ideal) x1 x4 x5 x6 (ix3 b j c))
          (fun j c => val_main_v26 (F := Ideal) x1 x6 (ix3 b j c)) c := by
  rw [val_main_v73_apply, val_main_v72_apply, merge_idx, v71_ix]
  rfl

/-- The output projection of the merged heads, biased. -/
theorem v77_ix (b : Fin 2) (i : Fin 2048) (e : Fin 1024) :
    val_main_v77 (F := Ideal) x0 x1 x2 x3 x4 x5 x6 x7 x8 (ix3 b i e)
      = Spec.outProj (Spec.merged (fun c => val_main_v23 (F := Ideal) x0 x2 x3 (ix3 b i c))
          (fun j c => val_main_v50 (F := Ideal) x1 x4 x5 x6 (ix3 b j c))
          (fun j c => val_main_v26 (F := Ideal) x1 x6 (ix3 b j c))) x7 x8 e := by
  rw [val_main_v77_apply, val_main_v74_apply, val_main_v76_apply, val_main_v75_apply, Ideal.addf_def]
  have e8 : idx_main_v75 (idx_main_v76 (ix3 b i e)) = ix1 e := by
    funext a; match a with | ⟨0, _⟩ => rfl
  rw [e8]
  unfold Spec.outProj
  refine congrArg (· + _) (Finset.sum_congr rfl fun k _ => ?_)
  have el : lidx_main_v74 (ix3 b i e) k = ix3 b i k := by
    funext a; match a with | ⟨0, _⟩ => rfl | ⟨1, _⟩ => rfl | ⟨2, _⟩ => rfl
  have er : ridx_main_v74 (ix3 b i e) k = ix2 e k := by
    funext a; match a with | ⟨0, _⟩ => rfl | ⟨1, _⟩ => rfl
  rw [el, er, v73_ix]

end Cert.ReferenceIdeal.RefAttn

end
-- ==== Proof.RefValue.lean ====
/-
  The reference's result, one operation after the other, is the specification's function of the nine arguments.
-/
import proofs.«106553_j9302899163605_2_alg».proof.Proof.Gen.ReferenceIdeal.Read
import proofs.«106553_j9302899163605_2_alg».proof.Proof.Spec
import proofs.«106553_j9302899163605_2_alg».proof.Proof.RefLN
import proofs.«106553_j9302899163605_2_alg».proof.Proof.RefKV
import proofs.«106553_j9302899163605_2_alg».proof.Proof.RefAttn

noncomputable section

namespace Cert.ReferenceIdeal.RefValue

open Idealize.ShloMosaic Idealize.ShloMosaic.ValueIdx
open Cert.ReferenceIdeal Cert.ReferenceIdeal.Read

theorem ref_eq (x0 x1 : (⟨S2x2048x1024, .f32⟩ : BufTy).Contents (Elt Ideal)) (x2 x3 x4 x5 : (⟨S1024, .f32⟩ : BufTy).Contents (Elt Ideal))
    (x6 : (⟨S2048x1024, .f32⟩ : BufTy).Contents (Elt Ideal)) (x7 : (⟨S1024x1024, .f32⟩ : BufTy).Contents (Elt Ideal))
    (x8 : (⟨S1024, .f32⟩ : BufTy).Contents (Elt Ideal)) :
    val_main_v77 (F := Ideal) x0 x1 x2 x3 x4 x5 x6 x7 x8 = Spec.result x0 x1 x2 x3 x4 x5 x6 x7 x8 := by
  funext i
  obtain ⟨b, n, e, rfl⟩ : ∃ (b : Fin 2) (n : Fin 2048) (e : Fin 1024), i = ix3 b n e := ⟨i 0, i 1, i 2, eq_ix3 i⟩
  -- the attention part over the queries, keys and values as arrays; then each of the three arrays
  rw [RefAttn.v77_ix, RefLN.v23_eq, RefKV.v50_eq, RefKV.v26_eq]
  unfold Spec.result Spec.attn
  rw [Spec.arr3_ix3]
  rfl

end Cert.ReferenceIdeal.RefValue

end
-- ==== Proof.lean ====
/-
  The certificate of the fused cross-attention block against its reference, on the extended reals.

  Both idealized programs compute one function of the nine arguments (Proof/Spec.lean): the keys are the layer-normalised
  first half, and the values the second half, of the context projected by `W_kv`; each query token's layer-normalised
  row attends head by head (64 channels per head) to the 2048 context tokens of its batch entry through a softmax of the
  scaled inner products; the heads' outputs, side by side, are projected by `W_out` and biased. The kernel program
  tiles the tokens over two grids and loops over the heads; the reference splits the heads by a reshape and a transpose.
  On the extended reals a change of float format is the identity and a contraction is one sum whatever its tiling, so the
  two results agree index by index with no use of the inputs' finiteness. The three frames are the generated ones (the
  reference's is its run with the result dropped), and the ideal pass rewrote nothing, so `preserves` is trivial.
-/
import proofs.«106553_j9302899163605_2_alg».proof.Defs
import proofs.«106553_j9302899163605_2_alg».proof.Proof.Gen.Kernel
import proofs.«106553_j9302899163605_2_alg».proof.Proof.Gen.Kernel.Skeleton
import proofs.«106553_j9302899163605_2_alg».proof.Proof.Gen.Kernel.Launch
import proofs.«106553_j9302899163605_2_alg».proof.Proof.Gen.Kernel.Points
import proofs.«106553_j9302899163605_2_alg».proof.Proof.Gen.Kernel.Frame
import proofs.«106553_j9302899163605_2_alg».proof.Proof.Gen.KernelIdeal
import proofs.«106553_j9302899163605_2_alg».proof.Proof.Gen.KernelIdeal.Skeleton
import proofs.«106553_j9302899163605_2_alg».proof.Proof.Gen.KernelIdeal.Launch
import proofs.«106553_j9302899163605_2_alg».proof.Proof.Gen.KernelIdeal.Points
import proofs.«106553_j9302899163605_2_alg».proof.Proof.Gen.KernelIdeal.Frame
import proofs.«106553_j9302899163605_2_alg».proof.Proof.Gen.ReferenceIdeal
import proofs.«106553_j9302899163605_2_alg».proof.Proof.Gen.ReferenceIdeal.Run
import proofs.«106553_j9302899163605_2_alg».proof.Proof.Gen.ReferenceIdeal.Read
import proofs.«106553_j9302899163605_2_alg».proof.Proof.Gen.Pre_finite_inputs
import proofs.«106553_j9302899163605_2_alg».proof.Proof.RunValue
import proofs.«106553_j9302899163605_2_alg».proof.Proof.Value
import proofs.«106553_j9302899163605_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : @Cert.frame_Kernel Cert.Kernel.Gen.facts Cert.Pre_finite_inputs.Gen.facts :=
  fun m ρ _ => Cert.Kernel.Gen.frame m ρ

/-- So does the idealized kernel program. -/
theorem frame_ki : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both idealized programs end with the specification's function of the
    arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.result_eq m ρ c), (h c).2⟩)
      (Cert.KernelIdeal.RunV.run (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8⟩ := hagree c
    rw [(h c).1, Cert.ReferenceIdeal.Read.val_main_v77_eq, Cert.ReferenceIdeal.RefValue.ref_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
